-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S3200000 : Shape := ⟨1, ![3200000]⟩
abbrev S512x8 : Shape := ⟨2, ![512, 8]⟩
abbrev S8 : Shape := ⟨1, ![8]⟩
abbrev S8x16 : Shape := ⟨2, ![8, 16]⟩
abbrev S16 : Shape := ⟨1, ![16]⟩
abbrev S16x8 : Shape := ⟨2, ![16, 8]⟩
abbrev S8x10 : Shape := ⟨2, ![8, 10]⟩
abbrev S10 : Shape := ⟨1, ![10]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S512x8 : S_.BroadcastsInDim S512x8 (![] : Fin 0 → Fin S512x8.rank)
  reducesTo_S512x8_S_d0_1 : S512x8.ReducesTo [0, 1] S_
  bcast_S_S8 : S_.BroadcastsInDim S8 (![] : Fin 0 → Fin S8.rank)
  reducesTo_S8_S_d0 : S8.ReducesTo [0] S_
  bcast_S_S8x16 : S_.BroadcastsInDim S8x16 (![] : Fin 0 → Fin S8x16.rank)
  reducesTo_S8x16_S_d0_1 : S8x16.ReducesTo [0, 1] S_
  bcast_S_S16 : S_.BroadcastsInDim S16 (![] : Fin 0 → Fin S16.rank)
  reducesTo_S16_S_d0 : S16.ReducesTo [0] S_
  bcast_S_S16x8 : S_.BroadcastsInDim S16x8 (![] : Fin 0 → Fin S16x8.rank)
  reducesTo_S16x8_S_d0_1 : S16x8.ReducesTo [0, 1] S_
  bcast_S_S8x10 : S_.BroadcastsInDim S8x10 (![] : Fin 0 → Fin S8x10.rank)
  reducesTo_S8x10_S_d0_1 : S8x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg8 : FVec F S8 .f32) (main_arg9 : FVec F S8x10 .f32) (main_arg10 : FVec F S10 .f32) (main_v33 : IVec S_ 1) : IVec S_ 1 :=
  let main_v34 : FVec F S8 .f32 := Host.absf main_arg8
  let main_cst_12 : FVec F S_ .f32 := constant S_ .f32 0x7F800000#32
  let main_v35 : FVec F S8 .f32 := broadcastInDim S8 ![] bcast_S_S8 main_cst_12
  let main_v36 : IVec S8 1 := cmpf .olt main_v34 main_v35
  let main_c_13 : IVec S_ 1 := constantI S_ 1 1#1
  let main_v37 : IVec S_ 1 := (fun x v => Host.reduce IntOp.andi x v reducesTo_S8_S_d0 h_S_) main_v36 main_c_13
  let main_v38 : IVec S_ 1 := andi main_v33 main_v37
  let main_v39 : FVec F S8x10 .f32 := Host.absf main_arg9
  let main_cst_14 : FVec F S_ .f32 := constant S_ .f32 0x7F800000#32
  let main_v40 : FVec F S8x10 .f32 := broadcastInDim S8x10 ![] bcast_S_S8x10 main_cst_14
  let main_v41 : IVec S8x10 1 := cmpf .olt main_v39 main_v40
  let main_c_15 : IVec S_ 1 := constantI S_ 1 1#1
  let main_v42 : IVec S_ 1 := (fun x v => Host.reduce IntOp.andi x v reducesTo_S8x10_S_d0_1 h_S_) main_v41 main_c_15
  let main_v43 : IVec S_ 1 := andi main_v38 main_v42
  let main_v44 : FVec F S10 .f32 := Host.absf main_arg10
  let main_cst_16 : FVec F S_ .f32 := constant S_ .f32 0x7F800000#32
  let main_v45 : FVec F S10 .f32 := broadcastInDim S10 ![] bcast_S_S10 main_cst_16
  let main_v46 : IVec S10 1 := cmpf .olt main_v44 main_v45
  let main_c_17 : IVec S_ 1 := constantI S_ 1 1#1
  let main_v47 : IVec S_ 1 := (fun x v => Host.reduce IntOp.andi x v reducesTo_S10_S_d0 h_S_) main_v46 main_c_17
  let main_v48 : IVec S_ 1 := andi main_v43 main_v47
  main_v48

def fn_part1 {F : FTy → Type} [FloatOps F] (main_arg5 : FVec F S8x16 .f32) (main_arg6 : FVec F S16 .f32) (main_arg7 : FVec F S16x8 .f32) (main_arg8 : FVec F S8 .f32) (main_arg9 : FVec F S8x10 .f32) (main_arg10 : FVec F S10 .f32) (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  let main_v19 : FVec F S8x16 .f32 := Host.absf main_arg5
  let main_cst_6 : FVec F S_ .f32 := constant S_ .f32 0x7F800000#32
  let main_v20 : FVec F S8x16 .f32 := broadcastInDim S8x16 ![] bcast_S_S8x16 main_cst_6
  let main_v21 : IVec S8x16 1 := cmpf .olt main_v19 main_v20
  let main_c_7 : IVec S_ 1 := constantI S_ 1 1#1
  let main_v22 : IVec S_ 1 := (fun x v => Host.reduce IntOp.andi x v reducesTo_S8x16_S_d0_1 h_S_) main_v21 main_c_7
  let main_v23 : IVec S_ 1 := andi main_v18 main_v22
  let main_v24 : FVec F S16 .f32 := Host.absf main_arg6
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16x8 .f32 := Host.absf main_arg7
  let main_cst_10 : FVec F S_ .f32 := constant S_ .f32 0x7F800000#32
  let main_v30 : FVec F S16x8 .f32 := broadcastInDim S16x8 ![] bcast_S_S16x8 main_cst_10
  let main_v31 : IVec S16x8 1 := cmpf .olt main_v29 main_v30
  let main_c_11 : IVec S_ 1 := constantI S_ 1 1#1
  let main_v32 : IVec S_ 1 := (fun x v => Host.reduce IntOp.andi x v reducesTo_S16x8_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x512 .f32) (main_arg1 : IVec S2x3200000 32) (main_arg2 : FVec F S3200000 .f32) (main_arg3 : FVec F S512x8 .f32) (main_arg4 : FVec F S8 .f32) (main_arg5 : FVec F S8x16 .f32) (main_arg6 : FVec F S16 .f32) (main_arg7 : FVec F S16x8 .f32) (main_arg8 : FVec F S8 .f32) (main_arg9 : FVec F S8x10 .f32) (main_arg10 : FVec F S10 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S512x8 .f32 := Host.absf main_arg3
  let main_cst_2 : FVec F S_ .f32 := constant S_ .f32 0x7F800000#32
  let main_v10 : FVec F S512x8 .f32 := broadcastInDim S512x8 ![] bcast_S_S512x8 main_cst_2
  let main_v11 : IVec S512x8 1 := cmpf .olt main_v9 main_v10
  let main_c_3 : IVec S_ 1 := constantI S_ 1 1#1
  let main_v12 : IVec S_ 1 := (fun x v => Host.reduce IntOp.andi x v reducesTo_S512x8_S_d0_1 h_S_) main_v11 main_c_3
  let main_v13 : IVec S_ 1 := andi main_v8 main_v12
  let main_v14 : FVec F S8 .f32 := Host.absf main_arg4
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_arg5 main_arg6 main_arg7 main_arg8 main_arg9 main_arg10 main_v13 main_v16
-- ==== Kernel.lean ====
abbrev S100000x512 : Shape := ⟨2, ![100000, 512]⟩
abbrev S2x3200000 : Shape := ⟨2, ![2, 3200000]⟩
abbrev S3200000 : Shape := ⟨1, ![3200000]⟩
abbrev S512x8 : Shape := ⟨2, ![512, 8]⟩
abbrev S8 : Shape := ⟨1, ![8]⟩
abbrev S8x16 : Shape := ⟨2, ![8, 16]⟩
abbrev S16 : Shape := ⟨1, ![16]⟩
abbrev S16x8 : Shape := ⟨2, ![16, 8]⟩
abbrev S8x10 : Shape := ⟨2, ![8, 10]⟩
abbrev S10 : Shape := ⟨1, ![10]⟩
abbrev S1x3200000 : Shape := ⟨2, ![1, 3200000]⟩
abbrev S100000x8 : Shape := ⟨2, ![100000, 8]⟩
abbrev S2000x512 : Shape := ⟨2, ![2000, 512]⟩
abbrev S2000x8 : Shape := ⟨2, ![2000, 8]⟩
abbrev S_ : Shape := ⟨0, ![]⟩
abbrev S3200000x1 : Shape := ⟨2, ![3200000, 1]⟩
abbrev S3200000x8 : Shape := ⟨2, ![3200000, 8]⟩
abbrev S1x8 : Shape := ⟨2, ![1, 8]⟩
abbrev S100000x16 : Shape := ⟨2, ![100000, 16]⟩
abbrev S2000x16 : Shape := ⟨2, ![2000, 16]⟩
abbrev S3200000x16 : Shape := ⟨2, ![3200000, 16]⟩
abbrev S1x16 : Shape := ⟨2, ![1, 16]⟩
abbrev S100000x10 : Shape := ⟨2, ![100000, 10]⟩
abbrev S2000x10 : Shape := ⟨2, ![2000, 10]⟩
abbrev S3200000x10 : Shape := ⟨2, ![3200000, 10]⟩
abbrev S1x10 : Shape := ⟨2, ![1, 10]⟩
abbrev S100000 : Shape := ⟨1, ![100000]⟩
abbrev S100000x1 : Shape := ⟨2, ![100000, 1]⟩

abbrev nBuf : Space → Nat
  | .hbm => 119
  | .vmem => 20
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S3200000, .f32⟩
  | .hbm, ⟨3, _⟩ => ⟨S512x8, .f32⟩
  | .hbm, ⟨4, _⟩ => ⟨S8, .f32⟩
  | .hbm, ⟨5, _⟩ => ⟨S8x16, .f32⟩
  | .hbm, ⟨6, _⟩ => ⟨S16, .f32⟩
  | .hbm, ⟨7, _⟩ => ⟨S16x8, .f32⟩
  | .hbm, ⟨8, _⟩ => ⟨S8, .f32⟩
  | .hbm, ⟨9, _⟩ => ⟨S8x10, .f32⟩
  | .hbm, ⟨10, _⟩ => ⟨S10, .f32⟩
  | .hbm, ⟨11, _⟩ => ⟨S1x3200000, .i32⟩
  | .hbm, ⟨12, _⟩ => ⟨S3200000, .i32⟩
  | .hbm, ⟨13, _⟩ => ⟨S1x3200000, .i32⟩
  | .hbm, ⟨14, _⟩ => ⟨S3200000, .i32⟩
  | .hbm, ⟨15, _⟩ => ⟨S100000x8, .f32⟩
  | .hbm, ⟨16, _⟩ => ⟨S_, .i32⟩
  | .hbm, ⟨17, _⟩ => ⟨S3200000, .i32⟩
  | .hbm, ⟨18, _⟩ => ⟨S3200000, .i1⟩
  | .hbm, ⟨19, _⟩ => ⟨S_, .i32⟩
  | .hbm, ⟨20, _⟩ => ⟨S3200000, .i32⟩
  | .hbm, ⟨21, _⟩ => ⟨S3200000, .i32⟩
  | .hbm, ⟨22, _⟩ => ⟨S3200000, .i32⟩
  | .hbm, ⟨23, _⟩ => ⟨S3200000x1, .i32⟩
  | .hbm, ⟨24, _⟩ => ⟨S3200000x8, .f32⟩
  | .hbm, ⟨25, _⟩ => ⟨S3200000x1, .f32⟩
  | .hbm, ⟨26, _⟩ => ⟨S3200000x8, .f32⟩
  | .hbm, ⟨27, _⟩ => ⟨S3200000x8, .f32⟩
  | .hbm, ⟨28, _⟩ => ⟨S_, .f32⟩
  | .hbm, ⟨29, _⟩ => ⟨S100000x8, .f32⟩
  | .hbm, ⟨30, _⟩ => ⟨S3200000x1, .i32⟩
  | .hbm, ⟨31, _⟩ => ⟨S100000x8, .f32⟩
  | .hbm, ⟨32, _⟩ => ⟨S1x8, .f32⟩
  | .hbm, ⟨33, _⟩ => ⟨S100000x8, .f32⟩
  | .hbm, ⟨34, _⟩ => ⟨S100000x8, .f32⟩
  | .hbm, ⟨35, _⟩ => ⟨S_, .f32⟩
  | .hbm, ⟨36, _⟩ => ⟨S100000x8, .f32⟩
  | .hbm, ⟨37, _⟩ => ⟨S100000x8, .f32⟩
  | .hbm, ⟨38, _⟩ => ⟨S100000x16, .f32⟩
  | .hbm, ⟨39, _⟩ => ⟨S_, .i32⟩
  | .hbm, ⟨40, _⟩ => ⟨S3200000, .i32⟩
  | .hbm, ⟨41, _⟩ => ⟨S3200000, .i1⟩
  | .hbm, ⟨42, _⟩ => ⟨S_, .i32⟩
  | .hbm, ⟨43, _⟩ => ⟨S3200000, .i32⟩
  | .hbm, ⟨44, _⟩ => ⟨S3200000, .i32⟩
  | .hbm, ⟨45, _⟩ => ⟨S3200000, .i32⟩
  | .hbm, ⟨46, _⟩ => ⟨S3200000x1, .i32⟩
  | .hbm, ⟨47, _⟩ => ⟨S3200000x16, .f32⟩
  | .hbm, ⟨48, _⟩ => ⟨S3200000x1, .f32⟩
  | .hbm, ⟨49, _⟩ => ⟨S3200000x16, .f32⟩
  | .hbm, ⟨50, _⟩ => ⟨S3200000x16, .f32⟩
  | .hbm, ⟨51, _⟩ => ⟨S_, .f32⟩
  | .hbm, ⟨52, _⟩ => ⟨S100000x16, .f32⟩
  | .hbm, ⟨53, _⟩ => ⟨S3200000x1, .i32⟩
  | .hbm, ⟨54, _⟩ => ⟨S100000x16, .f32⟩
  | .hbm, ⟨55, _⟩ => ⟨S1x16, .f32⟩
  | .hbm, ⟨56, _⟩ => ⟨S100000x16, .f32⟩
  | .hbm, ⟨57, _⟩ => ⟨S100000x16, .f32⟩
  | .hbm, ⟨58, _⟩ => ⟨S_, .f32⟩
  | .hbm, ⟨59, _⟩ => ⟨S100000x16, .f32⟩
  | .hbm, ⟨60, _⟩ => ⟨S100000x16, .f32⟩
  | .hbm, ⟨61, _⟩ => ⟨S100000x8, .f32⟩
  | .hbm, ⟨62, _⟩ => ⟨S_, .i32⟩
  | .hbm, ⟨63, _⟩ => ⟨S3200000, .i32⟩
  | .hbm, ⟨64, _⟩ => ⟨S3200000, .i1⟩
  | .hbm, ⟨65, _⟩ => ⟨S_, .i32⟩
  | .hbm, ⟨66, _⟩ => ⟨S3200000, .i32⟩
  | .hbm, ⟨67, _⟩ => ⟨S3200000, .i32⟩
  | .hbm, ⟨68, _⟩ => ⟨S3200000, .i32⟩
  | .hbm, ⟨69, _⟩ => ⟨S3200000x1, .i32⟩
  | .hbm, ⟨70, _⟩ => ⟨S3200000x8, .f32⟩
  | .hbm, ⟨71, _⟩ => ⟨S3200000x1, .f32⟩
  | .hbm, ⟨72, _⟩ => ⟨S3200000x8, .f32⟩
  | .hbm, ⟨73, _⟩ => ⟨S3200000x8, .f32⟩
  | .hbm, ⟨74, _⟩ => ⟨S_, .f32⟩
  | .hbm, ⟨75, _⟩ => ⟨S100000x8, .f32⟩
  | .hbm, ⟨76, _⟩ => ⟨S3200000x1, .i32⟩
  | .hbm, ⟨77, _⟩ => ⟨S100000x8, .f32⟩
  | .hbm, ⟨78, _⟩ => ⟨S1x8, .f32⟩
  | .hbm, ⟨79, _⟩ => ⟨S100000x8, .f32⟩
  | .hbm, ⟨80, _⟩ => ⟨S100000x8, .f32⟩
  | .hbm, ⟨81, _⟩ => ⟨S_, .f32⟩
  | .hbm, ⟨82, _⟩ => ⟨S100000x8, .f32⟩
  | .hbm, ⟨83, _⟩ => ⟨S100000x8, .f32⟩
  | .hbm, ⟨84, _⟩ => ⟨S100000x10, .f32⟩
  | .hbm, ⟨85, _⟩ => ⟨S_, .i32⟩
  | .hbm, ⟨86, _⟩ => ⟨S3200000, .i32⟩
  | .hbm, ⟨87, _⟩ => ⟨S3200000, .i1⟩
  | .hbm, ⟨88, _⟩ => ⟨S_, .i32⟩
  | .hbm, ⟨89, _⟩ => ⟨S3200000, .i32⟩
  | .hbm, ⟨90, _⟩ => ⟨S3200000, .i32⟩
  | .hbm, ⟨91, _⟩ => ⟨S3200000, .i32⟩
  | .hbm, ⟨92, _⟩ => ⟨S3200000x1, .i32⟩
  | .hbm, ⟨93, _⟩ => ⟨S3200000x10, .f32⟩
  | .hbm, ⟨94, _⟩ => ⟨S3200000x1, .f32⟩
  | .hbm, ⟨95, _⟩ => ⟨S3200000x10, .f32⟩
  | .hbm, ⟨96, _⟩ => ⟨S3200000x10, .f32⟩
  | .hbm, ⟨97, _⟩ => ⟨S_, .f32⟩
  | .hbm, ⟨98, _⟩ => ⟨S100000x10, .f32⟩
  | .hbm, ⟨99, _⟩ => ⟨S3200000x1, .i32⟩
  | .hbm, ⟨100, _⟩ => ⟨S100000x10, .f32⟩
  | .hbm, ⟨101, _⟩ => ⟨S1x10, .f32⟩
  | .hbm, ⟨102, _⟩ => ⟨S100000x10, .f32⟩
  | .hbm, ⟨103, _⟩ => ⟨S100000x10, .f32⟩
  | .hbm, ⟨104, _⟩ => ⟨S_, .f32⟩
  | .hbm, ⟨105, _⟩ => ⟨S100000, .f32⟩
  | .hbm, ⟨106, _⟩ => ⟨S_, .f32⟩
  | .hbm, ⟨107, _⟩ => ⟨S100000, .f32⟩
  | .hbm, ⟨108, _⟩ => ⟨S100000, .f32⟩
  | .hbm, ⟨109, _⟩ => ⟨S100000x1, .f32⟩
  | .hbm, ⟨110, _⟩ => ⟨S100000x10, .f32⟩
  | .hbm, ⟨111, _⟩ => ⟨S100000x10, .f32⟩
  | .hbm, ⟨112, _⟩ => ⟨S100000x10, .f32⟩
  | .hbm, ⟨113, _⟩ => ⟨S_, .f32⟩
  | .hbm, ⟨114, _⟩ => ⟨S100000, .f32⟩
  | .hbm, ⟨115, _⟩ => ⟨S100000x1, .f32⟩
  | .hbm, ⟨116, _⟩ => ⟨S100000x1, .f32⟩
  | .hbm, ⟨117, _⟩ => ⟨S100000x10, .f32⟩
  | .hbm, ⟨118, _⟩ => ⟨S100000x10, .f32⟩
  | .local _ .vmem, ⟨0, _⟩ => ⟨S2000x512, .f32⟩
  | .local _ .vmem, ⟨1, _⟩ => ⟨S2000x512, .f32⟩
  | .local _ .vmem, ⟨2, _⟩ => ⟨S512x8, .f32⟩
  | .local _ .vmem, ⟨3, _⟩ => ⟨S2000x8, .f32⟩
  | .local _ .vmem, ⟨4, _⟩ => ⟨S2000x8, .f32⟩
  | .local _ .vmem, ⟨5, _⟩ => ⟨S2000x8, .f32⟩
  | .local _ .vmem, ⟨6, _⟩ => ⟨S2000x8, .f32⟩
  | .local _ .vmem, ⟨7, _⟩ => ⟨S8x16, .f32⟩
  | .local _ .vmem, ⟨8, _⟩ => ⟨S2000x16, .f32⟩
  | .local _ .vmem, ⟨9, _⟩ => ⟨S2000x16, .f32⟩
  | .local _ .vmem, ⟨10, _⟩ => ⟨S2000x16, .f32⟩
  | .local _ .vmem, ⟨11, _⟩ => ⟨S2000x16, .f32⟩
  | .local _ .vmem, ⟨12, _⟩ => ⟨S16x8, .f32⟩
  | .local _ .vmem, ⟨13, _⟩ => ⟨S2000x8, .f32⟩
  | .local _ .vmem, ⟨14, _⟩ => ⟨S2000x8, .f32⟩
  | .local _ .vmem, ⟨15, _⟩ => ⟨S2000x8, .f32⟩
  | .local _ .vmem, ⟨16, _⟩ => ⟨S2000x8, .f32⟩
  | .local _ .vmem, ⟨17, _⟩ => ⟨S8x10, .f32⟩
  | .local _ .vmem, ⟨18, _⟩ => ⟨S2000x10, .f32⟩
  | .local _ .vmem, ⟨19, _⟩ => ⟨S2000x10, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_call0_cst : Ref sig .tc := ⟨.hbm, 35, rfl⟩
abbrev main_call0_v0 : Ref sig .tc := ⟨.hbm, 36, rfl⟩
abbrev main_v21 : Ref sig .tc := ⟨.hbm, 37, rfl⟩
abbrev main_v22 : Ref sig .tc := ⟨.hbm, 38, rfl⟩
abbrev main_c_1 : Ref sig .tc := ⟨.hbm, 39, rfl⟩
abbrev main_v23 : Ref sig .tc := ⟨.hbm, 40, rfl⟩
abbrev main_v24 : Ref sig .tc := ⟨.hbm, 41, rfl⟩
abbrev main_c_2 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_3 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_call1_cst : Ref sig .tc := ⟨.hbm, 58, rfl⟩
abbrev main_call1_v0 : Ref sig .tc := ⟨.hbm, 59, rfl⟩
abbrev main_v39 : Ref sig .tc := ⟨.hbm, 60, rfl⟩
abbrev main_v40 : Ref sig .tc := ⟨.hbm, 61, rfl⟩
abbrev main_c_4 : Ref sig .tc := ⟨.hbm, 62, rfl⟩
abbrev main_v41 : Ref sig .tc := ⟨.hbm, 63, rfl⟩
abbrev main_v42 : Ref sig .tc := ⟨.hbm, 64, rfl⟩
abbrev main_c_5 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_6 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_call2_cst : Ref sig .tc := ⟨.hbm, 81, rfl⟩
abbrev main_call2_v0 : Ref sig .tc := ⟨.hbm, 82, rfl⟩
abbrev main_v57 : Ref sig .tc := ⟨.hbm, 83, rfl⟩
abbrev main_v58 : Ref sig .tc := ⟨.hbm, 84, rfl⟩
abbrev main_c_7 : Ref sig .tc := ⟨.hbm, 85, rfl⟩
abbrev main_v59 : Ref sig .tc := ⟨.hbm, 86, rfl⟩
abbrev main_v60 : Ref sig .tc := ⟨.hbm, 87, rfl⟩
abbrev main_c_8 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_9 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_call3_cst : Ref sig .tc := ⟨.hbm, 104, rfl⟩
abbrev main_call3_v0 : Ref sig .tc := ⟨.hbm, 105, rfl⟩
abbrev main_call3_cst_0 : Ref sig .tc := ⟨.hbm, 106, rfl⟩
abbrev main_call3_v1 : Ref sig .tc := ⟨.hbm, 107, rfl⟩
abbrev main_call3_v2 : Ref sig .tc := ⟨.hbm, 108, rfl⟩
abbrev main_call3_v3 : Ref sig .tc := ⟨.hbm, 109, rfl⟩
abbrev main_call3_v4 : Ref sig .tc := ⟨.hbm, 110, rfl⟩
abbrev main_call3_v5 : Ref sig .tc := ⟨.hbm, 111, rfl⟩
abbrev main_call3_v6 : Ref sig .tc := ⟨.hbm, 112, rfl⟩
abbrev main_call3_cst_1 : Ref sig .tc := ⟨.hbm, 113, rfl⟩
abbrev main_call3_v7 : Ref sig .tc := ⟨.hbm, 114, rfl⟩
abbrev main_call3_v8 : Ref sig .tc := ⟨.hbm, 115, rfl⟩
abbrev main_call3_v9 : Ref sig .tc := ⟨.hbm, 116, rfl⟩
abbrev main_call3_v10 : Ref sig .tc := ⟨.hbm, 117, rfl⟩
abbrev main_v75 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x8 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x8 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x8 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x8 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S8x10 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x10 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x8_S512x8_0_0 : ∀ a, (![0, 0] : Fin 2 → Nat) a + S512x8.size a ≤ S512x8.size a
  h_S512x8 : 0 < S512x8.numel
  inb_S2000x8_S2000x8_0_0 : ∀ a, (![0, 0] : Fin 2 → Nat) a + S2000x8.size a ≤ S2000x8.size a
  h_S2000x8 : 0 < S2000x8.numel
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S3200000x1_S3200000x8_0_1 : S3200000x1.BroadcastsInDim S3200000x8 (![0, 1] : Fin 2 → Fin S3200000x8.rank)
  bcast_S_S100000x8 : S_.BroadcastsInDim S100000x8 (![] : Fin 0 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  shapeCasts_S2000x8_S2000x8 : S2000x8.ShapeCasts S2000x8
  inb_S8x16_S8x16_0_0 : ∀ a, (![0, 0] : Fin 2 → Nat) a + S8x16.size a ≤ S8x16.size a
  h_S8x16 : 0 < S8x16.numel
  inb_S2000x16_S2000x16_0_0 : ∀ a, (![0, 0] : Fin 2 → Nat) a + S2000x16.size a ≤ S2000x16.size a
  h_S2000x16 : 0 < S2000x16.numel
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  shapeCasts_S2000x16_S2000x16 : S2000x16.ShapeCasts S2000x16
  inb_S16x8_S16x8_0_0 : ∀ a, (![0, 0] : Fin 2 → Nat) a + S16x8.size a ≤ S16x8.size a
  h_S16x8 : 0 < S16x8.numel
  inb_S8x10_S8x10_0_0 : ∀ a, (![0, 0] : Fin 2 → Nat) a + S8x10.size a ≤ S8x10.size a
  h_S8x10 : 0 < S8x10.numel
  inb_S2000x10_S2000x10_0_0 : ∀ a, (![0, 0] : Fin 2 → Nat) a + S2000x10.size a ≤ S2000x10.size a
  h_S2000x10 : 0 < S2000x10.numel
  bcast_S3200000x1_S3200000x10_0_1 : S3200000x1.BroadcastsInDim S3200000x10 (![0, 1] : Fin 2 → Fin S3200000x10.rank)
  bcast_S_S100000x10 : S_.BroadcastsInDim S100000x10 (![] : Fin 0 → Fin S100000x10.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  reducesTo_S100000x10_S100000_d1 : S100000x10.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x10_0_1 : S100000x1.BroadcastsInDim S100000x10 (![0, 1] : Fin 2 → Fin S100000x10.rank)
  dot_S2000x512_S512x8_S2000x8_1_0_0_1_n_n_wf : DotDims.WF S2000x512 S512x8 S2000x8 [1] [0] [0] [1] [] []
  gather_S100000x8_S3200000x1_S3200000x8_1_0_n_n_0_1_18_wf : GatherDims.WF S100000x8 S3200000x1 S3200000x8 [1] [0] [] [0] [] 1 ![1, 8]
  scatter_S100000x8_S3200000x1_S3200000x8_1_0_0_1_wf : ScatterDims.WF S100000x8 S3200000x1 S3200000x8 [1] [0] [0] 1
  dot_S2000x8_S8x16_S2000x16_1_0_0_1_n_n_wf : DotDims.WF S2000x8 S8x16 S2000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S2000x16_S16x8_S2000x8_1_0_0_1_n_n_wf : DotDims.WF S2000x16 S16x8 S2000x8 [1] [0] [0] [1] [] []
  dot_S2000x8_S8x10_S2000x10_1_0_0_1_n_n_wf : DotDims.WF S2000x8 S8x10 S2000x10 [1] [0] [0] [1] [] []
  gather_S100000x10_S3200000x1_S3200000x10_1_0_n_n_0_1_110_wf : GatherDims.WF S100000x10 S3200000x1 S3200000x10 [1] [0] [] [0] [] 1 ![1, 10]
  scatter_S100000x10_S3200000x1_S3200000x10_1_0_0_1_wf : ScatterDims.WF S100000x10 S3200000x1 S3200000x10 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x8.size a ≤ S512x8.size a
  hwx0_1 : ∀ i : grid0.Coords, EltTy.bits .f32 = 32 ∨ (Rect.block (s := S512x8) S512x8.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x8.size a ≤ S100000x8.size a
  hwx0_2 : ∀ i : grid0.Coords, EltTy.bits .f32 = 32 ∨ (Rect.block (s := S100000x8) S2000x8.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x8.size a ≤ S100000x8.size a
  hwx1_0 : ∀ i : grid1.Coords, EltTy.bits .f32 = 32 ∨ (Rect.block (s := S100000x8) S2000x8.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8x16.size a ≤ S8x16.size a
  hwx1_1 : ∀ i : grid1.Coords, EltTy.bits .f32 = 32 ∨ (Rect.block (s := S8x16) S8x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x16.size a ≤ S100000x16.size a
  hwx1_2 : ∀ i : grid1.Coords, EltTy.bits .f32 = 32 ∨ (Rect.block (s := S100000x16) S2000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x16.size a ≤ S100000x16.size a
  hwx2_0 : ∀ i : grid2.Coords, EltTy.bits .f32 = 32 ∨ (Rect.block (s := S100000x16) S2000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x8.size a ≤ S16x8.size a
  hwx2_1 : ∀ i : grid2.Coords, EltTy.bits .f32 = 32 ∨ (Rect.block (s := S16x8) S16x8.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x8.size a ≤ S100000x8.size a
  hwx2_2 : ∀ i : grid2.Coords, EltTy.bits .f32 = 32 ∨ (Rect.block (s := S100000x8) S2000x8.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x8.size a ≤ S100000x8.size a
  hwx3_0 : ∀ i : grid3.Coords, EltTy.bits .f32 = 32 ∨ (Rect.block (s := S100000x8) S2000x8.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S8x10.size a ≤ S8x10.size a
  hwx3_1 : ∀ i : grid3.Coords, EltTy.bits .f32 = 32 ∨ (Rect.block (s := S8x10) S8x10.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x10.size a ≤ S100000x10.size a
  hwx3_2 : ∀ i : grid3.Coords, EltTy.bits .f32 = 32 ∨ (Rect.block (s := S100000x10) S2000x10.size (cc3_transform_2 i) (hinb3_2 i)).WholeWords (EltTy.packing .f32)

variable [Facts₀]

def dot_S2000x512_S512x8_S2000x8_1_0_0_1_n_n : DotDims S2000x512 S512x8 S2000x8 where
  lhsContracting := [1]
  rhsContracting := [0]
  lhsNonContracting := [0]
  rhsNonContracting := [1]
  lhsBatch := []
  rhsBatch := []
  wf := dot_S2000x512_S512x8_S2000x8_1_0_0_1_n_n_wf
def gather_S100000x8_S3200000x1_S3200000x8_1_0_n_n_0_1_18 : GatherDims S100000x8 S3200000x1 S3200000x8 where
  offsetDims := [1]
  collapsedSliceDims := [0]
  operandBatchingDims := []
  startIndicesBatchingDims := []
  startIndexMap := [0]
  indexVectorDim := 1
  sliceSizes := ![1, 8]
  wf := gather_S100000x8_S3200000x1_S3200000x8_1_0_n_n_0_1_18_wf
def scatter_S100000x8_S3200000x1_S3200000x8_1_0_0_1 : ScatterDims S100000x8 S3200000x1 S3200000x8 where
  updateWindowDims := [1]
  insertedWindowDims := [0]
  scatterDimsToOperandDims := [0]
  indexVectorDim := 1
  wf := scatter_S100000x8_S3200000x1_S3200000x8_1_0_0_1_wf
def dot_S2000x8_S8x16_S2000x16_1_0_0_1_n_n : DotDims S2000x8 S8x16 S2000x16 where
  lhsContracting := [1]
  rhsContracting := [0]
  lhsNonContracting := [0]
  rhsNonContracting := [1]
  lhsBatch := []
  rhsBatch := []
  wf := dot_S2000x8_S8x16_S2000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S2000x16_S16x8_S2000x8_1_0_0_1_n_n : DotDims S2000x16 S16x8 S2000x8 where
  lhsContracting := [1]
  rhsContracting := [0]
  lhsNonContracting := [0]
  rhsNonContracting := [1]
  lhsBatch := []
  rhsBatch := []
  wf := dot_S2000x16_S16x8_S2000x8_1_0_0_1_n_n_wf
def dot_S2000x8_S8x10_S2000x10_1_0_0_1_n_n : DotDims S2000x8 S8x10 S2000x10 where
  lhsContracting := [1]
  rhsContracting := [0]
  lhsNonContracting := [0]
  rhsNonContracting := [1]
  lhsBatch := []
  rhsBatch := []
  wf := dot_S2000x8_S8x10_S2000x10_1_0_0_1_n_n_wf
def gather_S100000x10_S3200000x1_S3200000x10_1_0_n_n_0_1_110 : GatherDims S100000x10 S3200000x1 S3200000x10 where
  offsetDims := [1]
  collapsedSliceDims := [0]
  operandBatchingDims := []
  startIndicesBatchingDims := []
  startIndexMap := [0]
  indexVectorDim := 1
  sliceSizes := ![1, 10]
  wf := gather_S100000x10_S3200000x1_S3200000x10_1_0_n_n_0_1_110_wf
def scatter_S100000x10_S3200000x1_S3200000x10_1_0_0_1 : ScatterDims S100000x10 S3200000x1 S3200000x10 where
  updateWindowDims := [1]
  insertedWindowDims := [0]
  scatterDimsToOperandDims := [0]
  indexVectorDim := 1
  wf := scatter_S100000x10_S3200000x1_S3200000x10_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2000x8.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v21) S2000x8.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S8x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v22) S2000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v39) S2000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S16x8.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v40) S2000x8.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S2000x8.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S8x10.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S2000x10.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S3200000 : Shape := ⟨1, ![3200000]⟩
abbrev S512x8 : Shape := ⟨2, ![512, 8]⟩
abbrev S8 : Shape := ⟨1, ![8]⟩
abbrev S8x16 : Shape := ⟨2, ![8, 16]⟩
abbrev S16 : Shape := ⟨1, ![16]⟩
abbrev S16x8 : Shape := ⟨2, ![16, 8]⟩
abbrev S8x10 : Shape := ⟨2, ![8, 10]⟩
abbrev S10 : Shape := ⟨1, ![10]⟩
abbrev S1x3200000 : Shape := ⟨2, ![1, 3200000]⟩
abbrev S100000x8 : Shape := ⟨2, ![100000, 8]⟩
abbrev S_ : Shape := ⟨0, ![]⟩
abbrev S3200000x1 : Shape := ⟨2, ![3200000, 1]⟩
abbrev S3200000x8 : Shape := ⟨2, ![3200000, 8]⟩
abbrev S1x8 : Shape := ⟨2, ![1, 8]⟩
abbrev S100000x16 : Shape := ⟨2, ![100000, 16]⟩
abbrev S3200000x16 : Shape := ⟨2, ![3200000, 16]⟩
abbrev S1x16 : Shape := ⟨2, ![1, 16]⟩
abbrev S100000x10 : Shape := ⟨2, ![100000, 10]⟩
abbrev S3200000x10 : Shape := ⟨2, ![3200000, 10]⟩
abbrev S1x10 : Shape := ⟨2, ![1, 10]⟩
abbrev S100000 : Shape := ⟨1, ![100000]⟩
abbrev S100000x1 : Shape := ⟨2, ![100000, 1]⟩

abbrev nBuf : Space → Nat
  | .hbm => 119
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S3200000, .f32⟩
  | .hbm, ⟨3, _⟩ => ⟨S512x8, .f32⟩
  | .hbm, ⟨4, _⟩ => ⟨S8, .f32⟩
  | .hbm, ⟨5, _⟩ => ⟨S8x16, .f32⟩
  | .hbm, ⟨6, _⟩ => ⟨S16, .f32⟩
  | .hbm, ⟨7, _⟩ => ⟨S16x8, .f32⟩
  | .hbm, ⟨8, _⟩ => ⟨S8, .f32⟩
  | .hbm, ⟨9, _⟩ => ⟨S8x10, .f32⟩
  | .hbm, ⟨10, _⟩ => ⟨S10, .f32⟩
  | .hbm, ⟨11, _⟩ => ⟨S1x3200000, .i32⟩
  | .hbm, ⟨12, _⟩ => ⟨S3200000, .i32⟩
  | .hbm, ⟨13, _⟩ => ⟨S1x3200000, .i32⟩
  | .hbm, ⟨14, _⟩ => ⟨S3200000, .i32⟩
  | .hbm, ⟨15, _⟩ => ⟨S100000x8, .f32⟩
  | .hbm, ⟨16, _⟩ => ⟨S_, .i32⟩
  | .hbm, ⟨17, _⟩ => ⟨S3200000, .i32⟩
  | .hbm, ⟨18, _⟩ => ⟨S3200000, .i1⟩
  | .hbm, ⟨19, _⟩ => ⟨S_, .i32⟩
  | .hbm, ⟨20, _⟩ => ⟨S3200000, .i32⟩
  | .hbm, ⟨21, _⟩ => ⟨S3200000, .i32⟩
  | .hbm, ⟨22, _⟩ => ⟨S3200000, .i32⟩
  | .hbm, ⟨23, _⟩ => ⟨S3200000x1, .i32⟩
  | .hbm, ⟨24, _⟩ => ⟨S3200000x8, .f32⟩
  | .hbm, ⟨25, _⟩ => ⟨S3200000x1, .f32⟩
  | .hbm, ⟨26, _⟩ => ⟨S3200000x8, .f32⟩
  | .hbm, ⟨27, _⟩ => ⟨S3200000x8, .f32⟩
  | .hbm, ⟨28, _⟩ => ⟨S_, .f32⟩
  | .hbm, ⟨29, _⟩ => ⟨S100000x8, .f32⟩
  | .hbm, ⟨30, _⟩ => ⟨S3200000x1, .i32⟩
  | .hbm, ⟨31, _⟩ => ⟨S100000x8, .f32⟩
  | .hbm, ⟨32, _⟩ => ⟨S1x8, .f32⟩
  | .hbm, ⟨33, _⟩ => ⟨S100000x8, .f32⟩
  | .hbm, ⟨34, _⟩ => ⟨S100000x8, .f32⟩
  | .hbm, ⟨35, _⟩ => ⟨S_, .f32⟩
  | .hbm, ⟨36, _⟩ => ⟨S100000x8, .f32⟩
  | .hbm, ⟨37, _⟩ => ⟨S100000x8, .f32⟩
  | .hbm, ⟨38, _⟩ => ⟨S100000x16, .f32⟩
  | .hbm, ⟨39, _⟩ => ⟨S_, .i32⟩
  | .hbm, ⟨40, _⟩ => ⟨S3200000, .i32⟩
  | .hbm, ⟨41, _⟩ => ⟨S3200000, .i1⟩
  | .hbm, ⟨42, _⟩ => ⟨S_, .i32⟩
  | .hbm, ⟨43, _⟩ => ⟨S3200000, .i32⟩
  | .hbm, ⟨44, _⟩ => ⟨S3200000, .i32⟩
  | .hbm, ⟨45, _⟩ => ⟨S3200000, .i32⟩
  | .hbm, ⟨46, _⟩ => ⟨S3200000x1, .i32⟩
  | .hbm, ⟨47, _⟩ => ⟨S3200000x16, .f32⟩
  | .hbm, ⟨48, _⟩ => ⟨S3200000x1, .f32⟩
  | .hbm, ⟨49, _⟩ => ⟨S3200000x16, .f32⟩
  | .hbm, ⟨50, _⟩ => ⟨S3200000x16, .f32⟩
  | .hbm, ⟨51, _⟩ => ⟨S_, .f32⟩
  | .hbm, ⟨52, _⟩ => ⟨S100000x16, .f32⟩
  | .hbm, ⟨53, _⟩ => ⟨S3200000x1, .i32⟩
  | .hbm, ⟨54, _⟩ => ⟨S100000x16, .f32⟩
  | .hbm, ⟨55, _⟩ => ⟨S1x16, .f32⟩
  | .hbm, ⟨56, _⟩ => ⟨S100000x16, .f32⟩
  | .hbm, ⟨57, _⟩ => ⟨S100000x16, .f32⟩
  | .hbm, ⟨58, _⟩ => ⟨S_, .f32⟩
  | .hbm, ⟨59, _⟩ => ⟨S100000x16, .f32⟩
  | .hbm, ⟨60, _⟩ => ⟨S100000x16, .f32⟩
  | .hbm, ⟨61, _⟩ => ⟨S100000x8, .f32⟩
  | .hbm, ⟨62, _⟩ => ⟨S_, .i32⟩
  | .hbm, ⟨63, _⟩ => ⟨S3200000, .i32⟩
  | .hbm, ⟨64, _⟩ => ⟨S3200000, .i1⟩
  | .hbm, ⟨65, _⟩ => ⟨S_, .i32⟩
  | .hbm, ⟨66, _⟩ => ⟨S3200000, .i32⟩
  | .hbm, ⟨67, _⟩ => ⟨S3200000, .i32⟩
  | .hbm, ⟨68, _⟩ => ⟨S3200000, .i32⟩
  | .hbm, ⟨69, _⟩ => ⟨S3200000x1, .i32⟩
  | .hbm, ⟨70, _⟩ => ⟨S3200000x8, .f32⟩
  | .hbm, ⟨71, _⟩ => ⟨S3200000x1, .f32⟩
  | .hbm, ⟨72, _⟩ => ⟨S3200000x8, .f32⟩
  | .hbm, ⟨73, _⟩ => ⟨S3200000x8, .f32⟩
  | .hbm, ⟨74, _⟩ => ⟨S_, .f32⟩
  | .hbm, ⟨75, _⟩ => ⟨S100000x8, .f32⟩
  | .hbm, ⟨76, _⟩ => ⟨S3200000x1, .i32⟩
  | .hbm, ⟨77, _⟩ => ⟨S100000x8, .f32⟩
  | .hbm, ⟨78, _⟩ => ⟨S1x8, .f32⟩
  | .hbm, ⟨79, _⟩ => ⟨S100000x8, .f32⟩
  | .hbm, ⟨80, _⟩ => ⟨S100000x8, .f32⟩
  | .hbm, ⟨81, _⟩ => ⟨S_, .f32⟩
  | .hbm, ⟨82, _⟩ => ⟨S100000x8, .f32⟩
  | .hbm, ⟨83, _⟩ => ⟨S100000x8, .f32⟩
  | .hbm, ⟨84, _⟩ => ⟨S100000x10, .f32⟩
  | .hbm, ⟨85, _⟩ => ⟨S_, .i32⟩
  | .hbm, ⟨86, _⟩ => ⟨S3200000, .i32⟩
  | .hbm, ⟨87, _⟩ => ⟨S3200000, .i1⟩
  | .hbm, ⟨88, _⟩ => ⟨S_, .i32⟩
  | .hbm, ⟨89, _⟩ => ⟨S3200000, .i32⟩
  | .hbm, ⟨90, _⟩ => ⟨S3200000, .i32⟩
  | .hbm, ⟨91, _⟩ => ⟨S3200000, .i32⟩
  | .hbm, ⟨92, _⟩ => ⟨S3200000x1, .i32⟩
  | .hbm, ⟨93, _⟩ => ⟨S3200000x10, .f32⟩
  | .hbm, ⟨94, _⟩ => ⟨S3200000x1, .f32⟩
  | .hbm, ⟨95, _⟩ => ⟨S3200000x10, .f32⟩
  | .hbm, ⟨96, _⟩ => ⟨S3200000x10, .f32⟩
  | .hbm, ⟨97, _⟩ => ⟨S_, .f32⟩
  | .hbm, ⟨98, _⟩ => ⟨S100000x10, .f32⟩
  | .hbm, ⟨99, _⟩ => ⟨S3200000x1, .i32⟩
  | .hbm, ⟨100, _⟩ => ⟨S100000x10, .f32⟩
  | .hbm, ⟨101, _⟩ => ⟨S1x10, .f32⟩
  | .hbm, ⟨102, _⟩ => ⟨S100000x10, .f32⟩
  | .hbm, ⟨103, _⟩ => ⟨S100000x10, .f32⟩
  | .hbm, ⟨104, _⟩ => ⟨S_, .f32⟩
  | .hbm, ⟨105, _⟩ => ⟨S100000, .f32⟩
  | .hbm, ⟨106, _⟩ => ⟨S_, .f32⟩
  | .hbm, ⟨107, _⟩ => ⟨S100000, .f32⟩
  | .hbm, ⟨108, _⟩ => ⟨S100000, .f32⟩
  | .hbm, ⟨109, _⟩ => ⟨S100000x1, .f32⟩
  | .hbm, ⟨110, _⟩ => ⟨S100000x10, .f32⟩
  | .hbm, ⟨111, _⟩ => ⟨S100000x10, .f32⟩
  | .hbm, ⟨112, _⟩ => ⟨S100000x10, .f32⟩
  | .hbm, ⟨113, _⟩ => ⟨S_, .f32⟩
  | .hbm, ⟨114, _⟩ => ⟨S100000, .f32⟩
  | .hbm, ⟨115, _⟩ => ⟨S100000x1, .f32⟩
  | .hbm, ⟨116, _⟩ => ⟨S100000x1, .f32⟩
  | .hbm, ⟨117, _⟩ => ⟨S100000x10, .f32⟩
  | .hbm, ⟨118, _⟩ => ⟨S100000x10, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_call0_cst : Ref sig .tc := ⟨.hbm, 35, rfl⟩
abbrev main_call0_v0 : Ref sig .tc := ⟨.hbm, 36, rfl⟩
abbrev main_v21 : Ref sig .tc := ⟨.hbm, 37, rfl⟩
abbrev main_v22 : Ref sig .tc := ⟨.hbm, 38, rfl⟩
abbrev main_c_1 : Ref sig .tc := ⟨.hbm, 39, rfl⟩
abbrev main_v23 : Ref sig .tc := ⟨.hbm, 40, rfl⟩
abbrev main_v24 : Ref sig .tc := ⟨.hbm, 41, rfl⟩
abbrev main_c_2 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_3 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_call1_cst : Ref sig .tc := ⟨.hbm, 58, rfl⟩
abbrev main_call1_v0 : Ref sig .tc := ⟨.hbm, 59, rfl⟩
abbrev main_v39 : Ref sig .tc := ⟨.hbm, 60, rfl⟩
abbrev main_v40 : Ref sig .tc := ⟨.hbm, 61, rfl⟩
abbrev main_c_4 : Ref sig .tc := ⟨.hbm, 62, rfl⟩
abbrev main_v41 : Ref sig .tc := ⟨.hbm, 63, rfl⟩
abbrev main_v42 : Ref sig .tc := ⟨.hbm, 64, rfl⟩
abbrev main_c_5 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_6 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_call2_cst : Ref sig .tc := ⟨.hbm, 81, rfl⟩
abbrev main_call2_v0 : Ref sig .tc := ⟨.hbm, 82, rfl⟩
abbrev main_v57 : Ref sig .tc := ⟨.hbm, 83, rfl⟩
abbrev main_v58 : Ref sig .tc := ⟨.hbm, 84, rfl⟩
abbrev main_c_7 : Ref sig .tc := ⟨.hbm, 85, rfl⟩
abbrev main_v59 : Ref sig .tc := ⟨.hbm, 86, rfl⟩
abbrev main_v60 : Ref sig .tc := ⟨.hbm, 87, rfl⟩
abbrev main_c_8 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_9 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_call3_cst : Ref sig .tc := ⟨.hbm, 104, rfl⟩
abbrev main_call3_v0 : Ref sig .tc := ⟨.hbm, 105, rfl⟩
abbrev main_call3_cst_0 : Ref sig .tc := ⟨.hbm, 106, rfl⟩
abbrev main_call3_v1 : Ref sig .tc := ⟨.hbm, 107, rfl⟩
abbrev main_call3_v2 : Ref sig .tc := ⟨.hbm, 108, rfl⟩
abbrev main_call3_v3 : Ref sig .tc := ⟨.hbm, 109, rfl⟩
abbrev main_call3_v4 : Ref sig .tc := ⟨.hbm, 110, rfl⟩
abbrev main_call3_v5 : Ref sig .tc := ⟨.hbm, 111, rfl⟩
abbrev main_call3_v6 : Ref sig .tc := ⟨.hbm, 112, rfl⟩
abbrev main_call3_cst_1 : Ref sig .tc := ⟨.hbm, 113, rfl⟩
abbrev main_call3_v7 : Ref sig .tc := ⟨.hbm, 114, rfl⟩
abbrev main_call3_v8 : Ref sig .tc := ⟨.hbm, 115, rfl⟩
abbrev main_call3_v9 : Ref sig .tc := ⟨.hbm, 116, rfl⟩
abbrev main_call3_v10 : Ref sig .tc := ⟨.hbm, 117, rfl⟩
abbrev main_v75 : Ref sig .tc := ⟨.hbm, 118, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S3200000x1_S3200000x8_0_1 : S3200000x1.BroadcastsInDim S3200000x8 (![0, 1] : Fin 2 → Fin S3200000x8.rank)
  bcast_S_S100000x8 : S_.BroadcastsInDim S100000x8 (![] : Fin 0 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3200000x1_S3200000x10_0_1 : S3200000x1.BroadcastsInDim S3200000x10 (![0, 1] : Fin 2 → Fin S3200000x10.rank)
  bcast_S_S100000x10 : S_.BroadcastsInDim S100000x10 (![] : Fin 0 → Fin S100000x10.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  reducesTo_S100000x10_S100000_d1 : S100000x10.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x10_0_1 : S100000x1.BroadcastsInDim S100000x10 (![0, 1] : Fin 2 → Fin S100000x10.rank)
  dot_S100000x512_S512x8_S100000x8_1_0_0_1_n_n_wf : DotDims.WF S100000x512 S512x8 S100000x8 [1] [0] [0] [1] [] []
  gather_S100000x8_S3200000x1_S3200000x8_1_0_n_n_0_1_18_wf : GatherDims.WF S100000x8 S3200000x1 S3200000x8 [1] [0] [] [0] [] 1 ![1, 8]
  scatter_S100000x8_S3200000x1_S3200000x8_1_0_0_1_wf : ScatterDims.WF S100000x8 S3200000x1 S3200000x8 [1] [0] [0] 1
  dot_S100000x8_S8x16_S100000x16_1_0_0_1_n_n_wf : DotDims.WF S100000x8 S8x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S100000x16_S16x8_S100000x8_1_0_0_1_n_n_wf : DotDims.WF S100000x16 S16x8 S100000x8 [1] [0] [0] [1] [] []
  dot_S100000x8_S8x10_S100000x10_1_0_0_1_n_n_wf : DotDims.WF S100000x8 S8x10 S100000x10 [1] [0] [0] [1] [] []
  gather_S100000x10_S3200000x1_S3200000x10_1_0_n_n_0_1_110_wf : GatherDims.WF S100000x10 S3200000x1 S3200000x10 [1] [0] [] [0] [] 1 ![1, 10]
  scatter_S100000x10_S3200000x1_S3200000x10_1_0_0_1_wf : ScatterDims.WF S100000x10 S3200000x1 S3200000x10 [1] [0] [0] 1

variable [Facts₀]

def dot_S100000x512_S512x8_S100000x8_1_0_0_1_n_n : DotDims S100000x512 S512x8 S100000x8 where
  lhsContracting := [1]
  rhsContracting := [0]
  lhsNonContracting := [0]
  rhsNonContracting := [1]
  lhsBatch := []
  rhsBatch := []
  wf := dot_S100000x512_S512x8_S100000x8_1_0_0_1_n_n_wf
def gather_S100000x8_S3200000x1_S3200000x8_1_0_n_n_0_1_18 : GatherDims S100000x8 S3200000x1 S3200000x8 where
  offsetDims := [1]
  collapsedSliceDims := [0]
  operandBatchingDims := []
  startIndicesBatchingDims := []
  startIndexMap := [0]
  indexVectorDim := 1
  sliceSizes := ![1, 8]
  wf := gather_S100000x8_S3200000x1_S3200000x8_1_0_n_n_0_1_18_wf
def scatter_S100000x8_S3200000x1_S3200000x8_1_0_0_1 : ScatterDims S100000x8 S3200000x1 S3200000x8 where
  updateWindowDims := [1]
  insertedWindowDims := [0]
  scatterDimsToOperandDims := [0]
  indexVectorDim := 1
  wf := scatter_S100000x8_S3200000x1_S3200000x8_1_0_0_1_wf
def dot_S100000x8_S8x16_S100000x16_1_0_0_1_n_n : DotDims S100000x8 S8x16 S100000x16 where
  lhsContracting := [1]
  rhsContracting := [0]
  lhsNonContracting := [0]
  rhsNonContracting := [1]
  lhsBatch := []
  rhsBatch := []
  wf := dot_S100000x8_S8x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x16_S16x8_S100000x8_1_0_0_1_n_n : DotDims S100000x16 S16x8 S100000x8 where
  lhsContracting := [1]
  rhsContracting := [0]
  lhsNonContracting := [0]
  rhsNonContracting := [1]
  lhsBatch := []
  rhsBatch := []
  wf := dot_S100000x16_S16x8_S100000x8_1_0_0_1_n_n_wf
def dot_S100000x8_S8x10_S100000x10_1_0_0_1_n_n : DotDims S100000x8 S8x10 S100000x10 where
  lhsContracting := [1]
  rhsContracting := [0]
  lhsNonContracting := [0]
  rhsNonContracting := [1]
  lhsBatch := []
  rhsBatch := []
  wf := dot_S100000x8_S8x10_S100000x10_1_0_0_1_n_n_wf
def gather_S100000x10_S3200000x1_S3200000x10_1_0_n_n_0_1_110 : GatherDims S100000x10 S3200000x1 S3200000x10 where
  offsetDims := [1]
  collapsedSliceDims := [0]
  operandBatchingDims := []
  startIndicesBatchingDims := []
  startIndexMap := [0]
  indexVectorDim := 1
  sliceSizes := ![1, 10]
  wf := gather_S100000x10_S3200000x1_S3200000x10_1_0_n_n_0_1_110_wf
def scatter_S100000x10_S3200000x1_S3200000x10_1_0_0_1 : ScatterDims S100000x10 S3200000x1 S3200000x10 where
  updateWindowDims := [1]
  insertedWindowDims := [0]
  scatterDimsToOperandDims := [0]
  indexVectorDim := 1
  wf := scatter_S100000x10_S3200000x1_S3200000x10_1_0_0_1_wf

class Facts : Prop extends Facts₀ where

variable [Facts]
-- ==== Proof.ResultRun.lean ====
/-
  The whole network's run with its result kept.

  The program is four dense layers, each a row-blocked matrix product on the device followed by the same edge-wise
  message passing on the host (gather the source rows, scale by the edge weight, add into the destination rows, add
  the bias, clamp at zero), and a row-wise log-softmax after the last. Its run is thirteen segments: a stretch of host
  operations, then alternately a product and the stretches that follow it. The contents of every buffer that outlives
  a segment are a fold through those segments from the launch memory; the last fold is the valuation at the return.
  Every weakly fair execution terminates, without a fault, in a state whose buffers hold that last valuation: so the
  result buffer ends at the last valuation read at it, and each argument, which no segment writes, ends as launched.
-/
import proofs.«136045_j24721831756423_1_alg».proof.Proof.Gen.KernelIdeal.Frame

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates, nothing faulting, with the
    result buffer at the last segment boundary's contents read at it and every argument as launched: the segments'
    launch, the last thread state (every buffer that outlives the segments at the last boundary's contents) read against
    the final memory, and, for an argument, the fold walked back to the launch memory. -/
theorem run_result : θ_run defs (onTc (τ := τ) (main (F := F))) ⟨m, fun _ => 0, ρ⟩ (fun r => ∀ c : Dev nD,
      r.2.mem ((c.tc : Thread nD τ).loc main_v75) = W13 m ρ c (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=

  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v75 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c)⟩)

end Cert.KernelIdeal.Net

end
-- ==== Proof.Layers.lean ====
/-
  The host's share of a layer, as functions of plain arrays.

  Between two dense transforms both programs do the same thing on the host. From the edge list [2, E] they take the
  source row and the destination row. A layer with transformed features t, edge weights w and bias b produces
      out[n, :] = b + Σ_{edges e with dst e = n} w[e] · t[src e, :]
  as a gather of rows, a scaling, and an accumulating scatter into zeros; the first three layers clamp the result at zero
  from below; the last is followed by a row-wise log-softmax, z − max_row(z) − log Σ_row exp(z − max_row(z)).
  Nothing is proved about these functions: both programs apply the very same ones, so it is enough to name them.
-/
import proofs.«136045_j24721831756423_1_alg».proof.Proof.Gen.KernelIdeal

noncomputable section

namespace Cert.KernelIdeal.Net

open Cert.KernelIdeal Cert.KernelIdeal.Gen
open Idealize.ShloMosaic Idealize.ShloMosaic.TcCoe

variable {F : FTy → Type} [FloatOps F]

/-- The source node of every edge: row 0 of the edge list. -/
def edgeSrc (e : (⟨S2x3200000, .i32⟩ : BufTy).Contents (Elt F)) : (⟨S3200000, .i32⟩ : BufTy).Contents (Elt F) :=
  shapeCast _ (extractStridedSlice S1x3200000 ![0, 0] e slices_S2x3200000_S1x3200000_0_0) shapeCasts_S1x3200000_S3200000

/-- The destination node of every edge: row 1 of the edge list. -/
def edgeDst (e : (⟨S2x3200000, .i32⟩ : BufTy).Contents (Elt F)) : (⟨S3200000, .i32⟩ : BufTy).Contents (Elt F) :=
  shapeCast _ (extractStridedSlice S1x3200000 ![1, 0] e slices_S2x3200000_S1x3200000_1_0) shapeCasts_S1x3200000_S3200000

/-- A node number as a row index: a negative number counts from the end (100000 is added), as a column of indices. -/
def nodeIndex (s : (⟨S3200000, .i32⟩ : BufTy).Contents (Elt F)) : (⟨S3200000x1, .i32⟩ : BufTy).Contents (Elt F) :=
  broadcastInDim S3200000x1 ![0] bcast_S3200000_S3200000x1_0
    (select (cmpi .slt s (broadcastInDim S3200000 ![] bcast_S_S3200000 (constantI S_ 32 0#32)))
      (addi s (broadcastInDim S3200000 ![] bcast_S_S3200000 (constantI S_ 32 100000#32))) s)

/-- One layer's message passing at feature width 8: every edge takes its source node's row of `t` (a negative node number
    counts from the end), scales it by the edge's weight, and adds it into its destination node's row of an array of
    zeros; the bias is added to every row. -/
def pass8 (t : (⟨S100000x8, .f32⟩ : BufTy).Contents (Elt F)) (src dst : (⟨S3200000, .i32⟩ : BufTy).Contents (Elt F))
    (w : (⟨S3200000, .f32⟩ : BufTy).Contents (Elt F)) (b : (⟨S8, .f32⟩ : BufTy).Contents (Elt F)) : (⟨S100000x8, .f32⟩ : BufTy).Contents (Elt F) :=
  addf
    (Host.scatterAdd scatter_S100000x8_S3200000x1_S3200000x8_1_0_0_1
      (broadcastInDim S100000x8 ![] bcast_S_S100000x8 (constant S_ .f32 0x00000000#32))
      (broadcastInDim S3200000x1 ![0] bcast_S3200000_S3200000x1_0 dst)
      (mulf (Host.gather gather_S100000x8_S3200000x1_S3200000x8_1_0_n_n_0_1_18 t (nodeIndex src))
        (broadcastInDim S3200000x8 ![0, 1] bcast_S3200000x1_S3200000x8_0_1
          (broadcastInDim S3200000x1 ![0] bcast_S3200000_S3200000x1_0 w))))
    (broadcastInDim S100000x8 ![0, 1] bcast_S1x8_S100000x8_0_1 (broadcastInDim S1x8 ![1] bcast_S8_S1x8_1 b))

/-- One layer's message passing at feature width 16: every edge takes its source node's row of `t` (a negative node number
    counts from the end), scales it by the edge's weight, and adds it into its destination node's row of an array of
    zeros; the bias is added to every row. -/
def pass16 (t : (⟨S100000x16, .f32⟩ : BufTy).Contents (Elt F)) (src dst : (⟨S3200000, .i32⟩ : BufTy).Contents (Elt F))
    (w : (⟨S3200000, .f32⟩ : BufTy).Contents (Elt F)) (b : (⟨S16, .f32⟩ : BufTy).Contents (Elt F)) : (⟨S100000x16, .f32⟩ : BufTy).Contents (Elt F) :=
  addf
    (Host.scatterAdd scatter_S100000x16_S3200000x1_S3200000x16_1_0_0_1
      (broadcastInDim S100000x16 ![] bcast_S_S100000x16 (constant S_ .f32 0x00000000#32))
      (broadcastInDim S3200000x1 ![0] bcast_S3200000_S3200000x1_0 dst)
      (mulf (Host.gather gather_S100000x16_S3200000x1_S3200000x16_1_0_n_n_0_1_116 t (nodeIndex src))
        (broadcastInDim S3200000x16 ![0, 1] bcast_S3200000x1_S3200000x16_0_1
          (broadcastInDim S3200000x1 ![0] bcast_S3200000_S3200000x1_0 w))))
    (broadcastInDim S100000x16 ![0, 1] bcast_S1x16_S100000x16_0_1 (broadcastInDim S1x16 ![1] bcast_S16_S1x16_1 b))

/-- One layer's message passing at feature width 10: every edge takes its source node's row of `t` (a negative node number
    counts from the end), scales it by the edge's weight, and adds it into its destination node's row of an array of
    zeros; the bias is added to every row. -/
def pass10 (t : (⟨S100000x10, .f32⟩ : BufTy).Contents (Elt F)) (src dst : (⟨S3200000, .i32⟩ : BufTy).Contents (Elt F))
    (w : (⟨S3200000, .f32⟩ : BufTy).Contents (Elt F)) (b : (⟨S10, .f32⟩ : BufTy).Contents (Elt F)) : (⟨S100000x10, .f32⟩ : BufTy).Contents (Elt F) :=
  addf
    (Host.scatterAdd scatter_S100000x10_S3200000x1_S3200000x10_1_0_0_1
      (broadcastInDim S100000x10 ![] bcast_S_S100000x10 (constant S_ .f32 0x00000000#32))
      (broadcastInDim S3200000x1 ![0] bcast_S3200000_S3200000x1_0 dst)
      (mulf (Host.gather gather_S100000x10_S3200000x1_S3200000x10_1_0_n_n_0_1_110 t (nodeIndex src))
        (broadcastInDim S3200000x10 ![0, 1] bcast_S3200000x1_S3200000x10_0_1
          (broadcastInDim S3200000x1 ![0] bcast_S3200000_S3200000x1_0 w))))
    (broadcastInDim S100000x10 ![0, 1] bcast_S1x10_S100000x10_0_1 (broadcastInDim S1x10 ![1] bcast_S10_S1x10_1 b))

/-- The clamp at zero from below, at width 8. -/
def relu8 (z : (⟨S100000x8, .f32⟩ : BufTy).Contents (Elt F)) : (⟨S100000x8, .f32⟩ : BufTy).Contents (Elt F) :=
  maximumf z (broadcastInDim S100000x8 ![] bcast_S_S100000x8 (constant S_ .f32 0x00000000#32))

/-- The clamp at zero from below, at width 16. -/
def relu16 (z : (⟨S100000x16, .f32⟩ : BufTy).Contents (Elt F)) : (⟨S100000x16, .f32⟩ : BufTy).Contents (Elt F) :=
  maximumf z (broadcastInDim S100000x16 ![] bcast_S_S100000x16 (constant S_ .f32 0x00000000#32))

/-- A row's entries less the row's largest (the largest taken from −∞ up). -/
def centred (z : (⟨S100000x10, .f32⟩ : BufTy).Contents (Elt F)) : (⟨S100000x10, .f32⟩ : BufTy).Contents (Elt F) :=
  subf z (broadcastInDim S100000x10 ![0, 1] bcast_S100000x1_S100000x10_0_1
    (broadcastInDim S100000x1 ![0] bcast_S100000_S100000x1_0
      (maximumf (broadcastInDim S100000 ![] bcast_S_S100000 (constant S_ .f32 0xFF800000#32))
        (Host.reduce FloatOps.maximumf z (constant S_ .f32 0xFF800000#32) reducesTo_S100000x10_S100000_d1 h_S_))))

/-- The row-wise log-softmax: the centred entries less the logarithm of the row's sum of their exponentials. -/
def logSoftmax (z : (⟨S100000x10, .f32⟩ : BufTy).Contents (Elt F)) : (⟨S100000x10, .f32⟩ : BufTy).Contents (Elt F) :=
  subf (centred z) (broadcastInDim S100000x10 ![0, 1] bcast_S100000x1_S100000x10_0_1
    (Host.log (broadcastInDim S100000x1 ![0] bcast_S100000_S100000x1_0
      (Host.reduceAdd (Host.exp (centred z)) (constant S_ .f32 0x00000000#32) reducesTo_S100000x10_S100000_d1 h_S_))))

end Cert.KernelIdeal.Net

end
-- ==== Proof.LibTypedRefs.lean ====
/-
  A typed reference moves a value between the tensor type it carries and its buffer's own type along the equation between
  the two. Moving a value to the buffer's type and back gives the value: the two transports compose to the identity.
-/
import Idealize.ShloMosaic.Lib.StableHlo

namespace Idealize.ShloMosaic.StableHlo.TRef

variable {sig : RefSig} {Val : EltTy → Type} {T : BufTy}

/-- Contents written through a typed reference read back through it unchanged. -/
theorem ofBuf_toBuf (x : TRef sig T) (v : T.Contents Val) : x.ofBuf (x.toBuf v) = v := by
  obtain ⟨r, rfl, h2, h3⟩ := x
  rfl

end Idealize.ShloMosaic.StableHlo.TRef
-- ==== Proof.KernelStretch.lean ====
/-
  The host stretches of the kernel's program, read.

  Between two products the program runs a stretch of host operations; each operation writes one fresh buffer from
  earlier ones, so the contents of a stretch's last buffer are a composition of its operations applied to what the
  stretch found in the buffers it reads, and every buffer the stretch does not write holds what it held. The first
  stretch cuts the edge list into its source and destination rows. The stretch after the first, the second and the third
  product is the layer's message passing followed by the clamp at zero; the stretch after the fourth is the message
  passing followed by the row-wise log-softmax. Each is stated from ANY contents found, so that it applies at whatever
  the fold through the earlier segments leaves.
-/
import proofs.«136045_j24721831756423_1_alg».proof.Proof.Gen.KernelIdeal.Launch
import proofs.«136045_j24721831756423_1_alg».proof.Proof.Layers
import proofs.«136045_j24721831756423_1_alg».proof.Proof.LibTypedRefs
import Idealize.ShloMosaic.Lib.StableHlo.Run

set_option maxRecDepth 16384

noncomputable section

namespace Cert.KernelIdeal.Net

open Cert.KernelIdeal Cert.KernelIdeal.Gen
open Idealize.ShloMosaic Idealize.ShloMosaic.TcCoe Idealize.ShloMosaic.StableHlo

variable {F : FTy → Type} [FloatOps F] (W : Valuation τ sig (Elt F))

/-! ## The first stretch: the edge list's two rows -/

theorem src_read : StableHlo.after hostOps0 W (Proc.devRef .tc main_v1) = edgeSrc (W (Proc.devRef .tc main_arg1)) := by
  after_results_simp <;> rfl

theorem dst_read : StableHlo.after hostOps0 W (Proc.devRef .tc main_v3) = edgeDst (W (Proc.devRef .tc main_arg1)) := by
  after_results_simp <;> rfl

theorem pre_keep_arg0 : StableHlo.after hostOps0 W (Proc.devRef .tc main_arg0) = W (Proc.devRef .tc main_arg0) := by
  after_results_simp

theorem pre_keep_arg2 : StableHlo.after hostOps0 W (Proc.devRef .tc main_arg2) = W (Proc.devRef .tc main_arg2) := by
  after_results_simp

theorem pre_keep_arg3 : StableHlo.after hostOps0 W (Proc.devRef .tc main_arg3) = W (Proc.devRef .tc main_arg3) := by
  after_results_simp

theorem pre_keep_arg4 : StableHlo.after hostOps0 W (Proc.devRef .tc main_arg4) = W (Proc.devRef .tc main_arg4) := by
  after_results_simp

theorem pre_keep_arg5 : StableHlo.after hostOps0 W (Proc.devRef .tc main_arg5) = W (Proc.devRef .tc main_arg5) := by
  after_results_simp

theorem pre_keep_arg6 : StableHlo.after hostOps0 W (Proc.devRef .tc main_arg6) = W (Proc.devRef .tc main_arg6) := by
  after_results_simp

theorem pre_keep_arg7 : StableHlo.after hostOps0 W (Proc.devRef .tc main_arg7) = W (Proc.devRef .tc main_arg7) := by
  after_results_simp

theorem pre_keep_arg8 : StableHlo.after hostOps0 W (Proc.devRef .tc main_arg8) = W (Proc.devRef .tc main_arg8) := by
  after_results_simp

theorem pre_keep_arg9 : StableHlo.after hostOps0 W (Proc.devRef .tc main_arg9) = W (Proc.devRef .tc main_arg9) := by
  after_results_simp

theorem pre_keep_arg10 : StableHlo.after hostOps0 W (Proc.devRef .tc main_arg10) = W (Proc.devRef .tc main_arg10) := by
  after_results_simp

/-! ## The stretches after the products -/

/-- The stretch after product 1: the message passing of what the product left, then the clamp at zero. -/
theorem layer1_read : StableHlo.after hostOps1_1 (StableHlo.after hostOps1 W) (Proc.devRef .tc main_v21)
    = relu8 (pass8 (W (Proc.devRef .tc main_v4)) (W (Proc.devRef .tc main_v1)) (W (Proc.devRef .tc main_v3)) (W (Proc.devRef .tc main_arg2)) (W (Proc.devRef .tc main_arg4))) := by
  after_results_simp
  simp only [StableHlo.TRef.ofBuf_toBuf]
  rfl

/-- The stretch after product 2: the message passing of what the product left, then the clamp at zero. -/
theorem layer2_read : StableHlo.after hostOps2_1 (StableHlo.after hostOps2 W) (Proc.devRef .tc main_v39)
    = relu16 (pass16 (W (Proc.devRef .tc main_v22)) (W (Proc.devRef .tc main_v1)) (W (Proc.devRef .tc main_v3)) (W (Proc.devRef .tc main_arg2)) (W (Proc.devRef .tc main_arg6))) := by
  after_results_simp
  simp only [StableHlo.TRef.ofBuf_toBuf]
  rfl

/-- The stretch after product 3: the message passing of what the product left, then the clamp at zero. -/
theorem layer3_read : StableHlo.after hostOps3_1 (StableHlo.after hostOps3 W) (Proc.devRef .tc main_v57)
    = relu8 (pass8 (W (Proc.devRef .tc main_v40)) (W (Proc.devRef .tc main_v1)) (W (Proc.devRef .tc main_v3)) (W (Proc.devRef .tc main_arg2)) (W (Proc.devRef .tc main_arg8))) := by
  after_results_simp
  simp only [StableHlo.TRef.ofBuf_toBuf]
  rfl

/-- The stretch after product 4: the message passing of what the product left, then the row-wise log-softmax. -/
theorem layer4_read : StableHlo.after hostOps4_1 (StableHlo.after hostOps4 W) (Proc.devRef .tc main_v75)
    = logSoftmax (pass10 (W (Proc.devRef .tc main_v58)) (W (Proc.devRef .tc main_v1)) (W (Proc.devRef .tc main_v3)) (W (Proc.devRef .tc main_arg2)) (W (Proc.devRef .tc main_arg10))) := by
  after_results_simp
  simp only [StableHlo.TRef.ofBuf_toBuf]
  rfl

/-! ## What a stretch leaves alone -/

theorem keep1_v1 : StableHlo.after hostOps1_1 (StableHlo.after hostOps1 W) (Proc.devRef .tc main_v1) = W (Proc.devRef .tc main_v1) := by
  after_results_simp

theorem keep1_v3 : StableHlo.after hostOps1_1 (StableHlo.after hostOps1 W) (Proc.devRef .tc main_v3) = W (Proc.devRef .tc main_v3) := by
  after_results_simp

theorem keep1_arg2 : StableHlo.after hostOps1_1 (StableHlo.after hostOps1 W) (Proc.devRef .tc main_arg2) = W (Proc.devRef .tc main_arg2) := by
  after_results_simp

theorem keep1_arg5 : StableHlo.after hostOps1_1 (StableHlo.after hostOps1 W) (Proc.devRef .tc main_arg5) = W (Proc.devRef .tc main_arg5) := by
  after_results_simp

theorem keep1_arg6 : StableHlo.after hostOps1_1 (StableHlo.after hostOps1 W) (Proc.devRef .tc main_arg6) = W (Proc.devRef .tc main_arg6) := by
  after_results_simp

theorem keep1_arg7 : StableHlo.after hostOps1_1 (StableHlo.after hostOps1 W) (Proc.devRef .tc main_arg7) = W (Proc.devRef .tc main_arg7) := by
  after_results_simp

theorem keep1_arg8 : StableHlo.after hostOps1_1 (StableHlo.after hostOps1 W) (Proc.devRef .tc main_arg8) = W (Proc.devRef .tc main_arg8) := by
  after_results_simp

theorem keep1_arg9 : StableHlo.after hostOps1_1 (StableHlo.after hostOps1 W) (Proc.devRef .tc main_arg9) = W (Proc.devRef .tc main_arg9) := by
  after_results_simp

theorem keep1_arg10 : StableHlo.after hostOps1_1 (StableHlo.after hostOps1 W) (Proc.devRef .tc main_arg10) = W (Proc.devRef .tc main_arg10) := by
  after_results_simp

theorem keep2_v1 : StableHlo.after hostOps2_1 (StableHlo.after hostOps2 W) (Proc.devRef .tc main_v1) = W (Proc.devRef .tc main_v1) := by
  after_results_simp

theorem keep2_v3 : StableHlo.after hostOps2_1 (StableHlo.after hostOps2 W) (Proc.devRef .tc main_v3) = W (Proc.devRef .tc main_v3) := by
  after_results_simp

theorem keep2_arg2 : StableHlo.after hostOps2_1 (StableHlo.after hostOps2 W) (Proc.devRef .tc main_arg2) = W (Proc.devRef .tc main_arg2) := by
  after_results_simp

theorem keep2_arg7 : StableHlo.after hostOps2_1 (StableHlo.after hostOps2 W) (Proc.devRef .tc main_arg7) = W (Proc.devRef .tc main_arg7) := by
  after_results_simp

theorem keep2_arg8 : StableHlo.after hostOps2_1 (StableHlo.after hostOps2 W) (Proc.devRef .tc main_arg8) = W (Proc.devRef .tc main_arg8) := by
  after_results_simp

theorem keep2_arg9 : StableHlo.after hostOps2_1 (StableHlo.after hostOps2 W) (Proc.devRef .tc main_arg9) = W (Proc.devRef .tc main_arg9) := by
  after_results_simp

theorem keep2_arg10 : StableHlo.after hostOps2_1 (StableHlo.after hostOps2 W) (Proc.devRef .tc main_arg10) = W (Proc.devRef .tc main_arg10) := by
  after_results_simp

theorem keep3_v1 : StableHlo.after hostOps3_1 (StableHlo.after hostOps3 W) (Proc.devRef .tc main_v1) = W (Proc.devRef .tc main_v1) := by
  after_results_simp

theorem keep3_v3 : StableHlo.after hostOps3_1 (StableHlo.after hostOps3 W) (Proc.devRef .tc main_v3) = W (Proc.devRef .tc main_v3) := by
  after_results_simp

theorem keep3_arg2 : StableHlo.after hostOps3_1 (StableHlo.after hostOps3 W) (Proc.devRef .tc main_arg2) = W (Proc.devRef .tc main_arg2) := by
  after_results_simp

theorem keep3_arg9 : StableHlo.after hostOps3_1 (StableHlo.after hostOps3 W) (Proc.devRef .tc main_arg9) = W (Proc.devRef .tc main_arg9) := by
  after_results_simp

theorem keep3_arg10 : StableHlo.after hostOps3_1 (StableHlo.after hostOps3 W) (Proc.devRef .tc main_arg10) = W (Proc.devRef .tc main_arg10) := by
  after_results_simp

end Cert.KernelIdeal.Net

end
-- ==== Proof.LibDotInner.lean ====
/-
  A product of two matrices along the last axis of the first and the first axis of the second, read at an entry.

  `x @ W` — a [M, K] matrix against a [K, N] matrix — has at (p, f) the entry Σ_k x[p, k] · W[k, f]. Over the extended reals
  this holds of the matrix unit started from the zero splat, whatever order it sums in. The dimension numbers enter only through
  four coordinate facts (which operand coordinate is the result's row, the result's column, the contraction's index); a
  caller proves them of its own record and gets the entry as a sum over `Fin K`.
-/
import Idealize.ShloMosaic.PureOps.Ideal.Laws
import Idealize.ShloMosaic.Lib.ValueIdx

noncomputable section

open scoped BigOperators

namespace Idealize.ShloMosaic.DotInner

open Idealize.ShloMosaic Idealize.ShloMosaic.ValueIdx

variable {M N K : ℕ} {φ₁ φ₂ : FTy}

/-- The two operand indices at result entry (p, f) and contraction coordinate k are (p, k) and (k, f). -/
theorem operand_idx (D : DotDims ⟨2, ![M, K]⟩ ⟨2, ![K, N]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (p : Fin M) (f : Fin N) (k : Fin K) :
    D.lhsIdx (ix2 p f) ((contrEquiv1 D K hr hs).symm k) = ix2 p k
      ∧ D.rhsIdx (ix2 p f) ((contrEquiv1 D K hr hs).symm k) = ix2 k f := by
  have hk := contrEquiv1_symm_val D K hr hs k
  refine ⟨funext fun a => Fin.ext ?_, funext fun a => Fin.ext ?_⟩
  · match a with
    | ⟨0, _⟩ => exact hl0 _ _
    | ⟨1, _⟩ => exact (hl1 _ _).trans hk
  · match a with
    | ⟨0, _⟩ => exact (hr0 _ _).trans hk
    | ⟨1, _⟩ => exact hr1 _ _

/-- THE MATRIX UNIT from the zero splat: entry (p, f) is Σ_k lhs[p, k] · rhs[k, f]. -/
theorem matmul_zero_apply (D : DotDims ⟨2, ![M, K]⟩ ⟨2, ![K, N]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (prec : Option ContractPrecision) (lhs : FVec Ideal ⟨2, ![M, K]⟩ φ₁) (rhs : FVec Ideal ⟨2, ![K, N]⟩ φ₂) (p : Fin M) (f : Fin N) :
    FloatOps.matmul D prec lhs rhs (constant (F := Ideal) ⟨2, ![M, N]⟩ .f32 0x00000000#32) (ix2 p f)
      = ∑ k : Fin K, lhs (ix2 p k) * rhs (ix2 k f) := by
  rw [Ideal.matmul_constant_zero_apply, ← Equiv.sum_comp (contrEquiv1 D K hr hs).symm]
  refine Finset.sum_congr rfl fun k _ => ?_
  obtain ⟨el, er⟩ := operand_idx D hr hs hl0 hl1 hr0 hr1 p f k
  rw [el, er]

end Idealize.ShloMosaic.DotInner

end
-- ==== Proof.LibDotInnerHost.lean ====
/-
  The host's matrix product along the last axis of the first operand and the first axis of the second, read at an entry,
  and the six facts about a record of dimension numbers that both readings (the matrix unit's and the host's) ask for,
  bundled so that a caller proves them once per record.

  For a [M, K] matrix against a [K, N] matrix both products have at (p, f) the entry Σ_k x[p, k] · W[k, f] over the
  extended reals: the host's product carries no accumulator, the matrix unit's starts from the zero splat.
-/
import Idealize.ShloMosaic.PureOps.Ideal.Laws
import Idealize.ShloMosaic.Lib.ValueIdx
import proofs.«136045_j24721831756423_1_alg».proof.Proof.LibDotInner

noncomputable section

open scoped BigOperators

namespace Idealize.ShloMosaic.DotInner

open Idealize.ShloMosaic Idealize.ShloMosaic.ValueIdx

variable {M N K : ℕ} {φ₁ φ₂ : FTy}

/-- What a plain row-by-column product's dimension numbers say: one contracted axis of extent K; the left operand's
    coordinates are (result row, contraction index), the right operand's (contraction index, result column). -/
structure Plain (D : DotDims ⟨2, ![M, K]⟩ ⟨2, ![K, N]⟩ ⟨2, ![M, N]⟩) : Prop where
  rank : D.contr.rank = 1
  size : D.contr.size ⟨0, by omega⟩ = K
  l0 : ∀ j q, (D.lhsIdx j q 0).val = (j 0).val
  l1 : ∀ j q, (D.lhsIdx j q 1).val = (q ⟨0, by omega⟩).val
  r0 : ∀ j q, (D.rhsIdx j q 0).val = (q ⟨0, by omega⟩).val
  r1 : ∀ j q, (D.rhsIdx j q 1).val = (j 1).val

/-- The matrix unit from the zero splat, entry (p, f): Σ_k lhs[p, k] · rhs[k, f]. -/
theorem Plain.matmul_zero {D : DotDims ⟨2, ![M, K]⟩ ⟨2, ![K, N]⟩ ⟨2, ![M, N]⟩} (h : Plain D)
    (prec : Option ContractPrecision) (lhs : FVec Ideal ⟨2, ![M, K]⟩ φ₁) (rhs : FVec Ideal ⟨2, ![K, N]⟩ φ₂) (p : Fin M) (f : Fin N) :
    FloatOps.matmul D prec lhs rhs (constant (F := Ideal) ⟨2, ![M, N]⟩ .f32 0x00000000#32) (ix2 p f)
      = ∑ k : Fin K, lhs (ix2 p k) * rhs (ix2 k f) :=
  matmul_zero_apply D h.rank h.size h.l0 h.l1 h.r0 h.r1 prec lhs rhs p f

/-- The host's product, entry (p, f): the same sum, with no accumulator. -/
theorem Plain.dotGeneral {D : DotDims ⟨2, ![M, K]⟩ ⟨2, ![K, N]⟩ ⟨2, ![M, N]⟩} (h : Plain D)
    (prec : Option ContractPrecision) (lhs : FVec Ideal ⟨2, ![M, K]⟩ φ₁) (rhs : FVec Ideal ⟨2, ![K, N]⟩ φ₂) (p : Fin M) (f : Fin N) :
    Host.dotGeneral (F := Ideal) D prec lhs rhs (ix2 p f) = ∑ k : Fin K, lhs (ix2 p k) * rhs (ix2 k f) := by
  show FloatOps.dotGeneral D prec .single lhs rhs (ix2 p f) = _
  rw [Ideal.dotGeneral_apply, ← Equiv.sum_comp (contrEquiv1 D K h.rank h.size).symm]
  refine Finset.sum_congr rfl fun k _ => ?_
  obtain ⟨el, er⟩ := operand_idx D h.rank h.size h.l0 h.l1 h.r0 h.r1 p f k
  rw [el, er]

/-- The six facts of a record D whose lists say rows-by-columns (left operand of shape sl contracted on its axis 1, right
    operand of shape sr on its axis 0, no batch axes): the contraction's rank and extent compute; the contracted
    coordinates are the library's single-axis lemmas; the kept coordinates are read off the index maps' own case split,
    whose two membership tests are decided on the record's lists. -/
macro "plain_record " D:term ", " sl:term ", " sr:term : term => `(
  { rank := rfl
    size := rfl
    l0 := fun j q => by
      unfold DotDims.lhsIdx
      rw [dif_neg (show ¬(0 : Fin ($sl).rank) ∈ ($D).lhsBatch by decide),
        dif_pos (show (0 : Fin ($sl).rank) ∈ ($D).lhsNonContracting by decide)]
      rfl
    l1 := fun j q => DotDims.lhsIdx_val_of_single $D rfl j q
    r0 := fun j q => DotDims.rhsIdx_val_of_single $D rfl j q
    r1 := fun j q => by
      unfold DotDims.rhsIdx
      rw [dif_neg (show ¬(1 : Fin ($sr).rank) ∈ ($D).rhsBatch by decide),
        dif_pos (show (1 : Fin ($sr).rank) ∈ ($D).rhsNonContracting by decide)]
      rfl })

end Idealize.ShloMosaic.DotInner

end
-- ==== Proof.Dense.lean ====
/-
  The dense transform of a layer, as one function of its two arrays.

  For a feature array x of shape [M, K] and a weight array w of shape [K, N] the transform x @ w has at row p and column f
  the entry Σ_k x[p, k] · w[k, f]. Over the extended reals both ways the programs compute it give exactly this sum,
  whatever the order or the tiling of the summation: the host's product of the two whole arrays, which carries no
  accumulator, and the matrix unit started from the zero splat on a block of rows. No finiteness is asked: the statement
  is an equality of the same finite sum of the same products.
-/
import Idealize.ShloMosaic.PureOps.Ideal.Laws
import Idealize.ShloMosaic.Lib.ValueIdx
import proofs.«136045_j24721831756423_1_alg».proof.Proof.LibDotInnerHost

noncomputable section

open scoped BigOperators

namespace Cert.Net

open Idealize.ShloMosaic Idealize.ShloMosaic.ValueIdx Idealize.ShloMosaic.DotInner

variable {M K N : ℕ} {φ₁ φ₂ : FTy}

/-- `x @ w`: entry (p, f) is the sum over the shared axis of the products x[p, k] · w[k, f]. -/
def dense (x : (⟨2, ![M, K]⟩ : Shape).Idx → EReal) (w : (⟨2, ![K, N]⟩ : Shape).Idx → EReal) : (⟨2, ![M, N]⟩ : Shape).Idx → EReal :=
  fun i => ∑ k : Fin K, x (ix2 (n0 := M) (i 0) k) * w (ix2 (n1 := N) k (i 1))

/-- The entry at explicit coordinates. -/
theorem dense_apply (x : (⟨2, ![M, K]⟩ : Shape).Idx → EReal) (w : (⟨2, ![K, N]⟩ : Shape).Idx → EReal) (p : Fin M) (f : Fin N) :
    dense x w (ix2 p f) = ∑ k : Fin K, x (ix2 p k) * w (ix2 k f) := rfl

/-- The host's product of two whole arrays along the last axis of the first and the first axis of the second is the dense
    transform, entry by entry. -/
theorem hostDot_eq_dense {D : DotDims ⟨2, ![M, K]⟩ ⟨2, ![K, N]⟩ ⟨2, ![M, N]⟩} (h : Plain D) (prec : Option ContractPrecision)
    (x : FVec Ideal ⟨2, ![M, K]⟩ φ₁) (w : FVec Ideal ⟨2, ![K, N]⟩ φ₂) :
    Host.dotGeneral (F := Ideal) D prec x w = dense x w := by
  funext i
  obtain ⟨p, f, rfl⟩ : ∃ (p : Fin M) (f : Fin N), i = ix2 p f := ⟨i 0, i 1, eq_ix2 i⟩
  exact h.dotGeneral prec x w p f

/-- The matrix unit from the zero splat, on a block of B rows against the whole weight array: entry (p, f) of the block's
    result is the same sum over the block's row p. -/
theorem unit_apply {B : ℕ} {D : DotDims ⟨2, ![B, K]⟩ ⟨2, ![K, N]⟩ ⟨2, ![B, N]⟩} (h : Plain D) (prec : Option ContractPrecision)
    (x : FVec Ideal ⟨2, ![B, K]⟩ φ₁) (w : FVec Ideal ⟨2, ![K, N]⟩ φ₂) (p : Fin B) (f : Fin N) :
    FloatOps.matmul D prec x w (constant (F := Ideal) ⟨2, ![B, N]⟩ .f32 0x00000000#32) (ix2 p f)
      = ∑ k : Fin K, x (ix2 p k) * w (ix2 k f) :=
  h.matmul_zero prec x w p f

end Cert.Net

end
-- ==== Proof.Network.lean ====
/-
  The network both programs compute, as one function of the eleven argument arrays.

  With s and d the source and destination rows of the edge list e and w the edge weights, a layer sends features h to
  pass(h @ W, s, d, w, b). The network is three such layers at widths 8, 16, 8, each clamped at zero from below, a fourth
  at width 10, and the row-wise log-softmax of that. The dense transform h @ W is the whole-array sum of products
  (`dense`); everything else is the host's own operations (`pass…`, `relu…`, `logSoftmax`), which both programs apply
  literally. Stating both runs at this one function is the whole of the comparison: the kernel's program reaches it
  because each of its row-blocked products is the dense transform of the arrays it finds, the reference because its
  host product is.
-/
import proofs.«136045_j24721831756423_1_alg».proof.Proof.Layers
import proofs.«136045_j24721831756423_1_alg».proof.Proof.Dense

noncomputable section

namespace Cert.KernelIdeal.Net

open Cert.KernelIdeal Cert.KernelIdeal.Gen Cert.Net
open Idealize.ShloMosaic Idealize.ShloMosaic.TcCoe

/-- The first hidden layer, width 8. -/
def hidden1 (x : (⟨S100000x512, .f32⟩ : BufTy).Contents (Elt Ideal)) (e : (⟨S2x3200000, .i32⟩ : BufTy).Contents (Elt Ideal)) (w : (⟨S3200000, .f32⟩ : BufTy).Contents (Elt Ideal))
    (W1 : (⟨S512x8, .f32⟩ : BufTy).Contents (Elt Ideal)) (b1 : (⟨S8, .f32⟩ : BufTy).Contents (Elt Ideal)) : (⟨S100000x8, .f32⟩ : BufTy).Contents (Elt Ideal) :=
  relu8 (pass8 (dense (x : S100000x512.Idx → EReal) (W1 : S512x8.Idx → EReal)) (edgeSrc e) (edgeDst e) w b1)

/-- The second hidden layer, width 16, from the first. -/
def hidden2 (h1 : (⟨S100000x8, .f32⟩ : BufTy).Contents (Elt Ideal)) (e : (⟨S2x3200000, .i32⟩ : BufTy).Contents (Elt Ideal)) (w : (⟨S3200000, .f32⟩ : BufTy).Contents (Elt Ideal))
    (W2 : (⟨S8x16, .f32⟩ : BufTy).Contents (Elt Ideal)) (b2 : (⟨S16, .f32⟩ : BufTy).Contents (Elt Ideal)) : (⟨S100000x16, .f32⟩ : BufTy).Contents (Elt Ideal) :=
  relu16 (pass16 (dense (h1 : S100000x8.Idx → EReal) (W2 : S8x16.Idx → EReal)) (edgeSrc e) (edgeDst e) w b2)

/-- The third hidden layer, width 8, from the second. -/
def hidden3 (h2 : (⟨S100000x16, .f32⟩ : BufTy).Contents (Elt Ideal)) (e : (⟨S2x3200000, .i32⟩ : BufTy).Contents (Elt Ideal)) (w : (⟨S3200000, .f32⟩ : BufTy).Contents (Elt Ideal))
    (W3 : (⟨S16x8, .f32⟩ : BufTy).Contents (Elt Ideal)) (b3 : (⟨S8, .f32⟩ : BufTy).Contents (Elt Ideal)) : (⟨S100000x8, .f32⟩ : BufTy).Contents (Elt Ideal) :=
  relu8 (pass8 (dense (h2 : S100000x16.Idx → EReal) (W3 : S16x8.Idx → EReal)) (edgeSrc e) (edgeDst e) w b3)

/-- The output: the fourth layer at width 10, not clamped, then the row-wise log-softmax. -/
def output (h3 : (⟨S100000x8, .f32⟩ : BufTy).Contents (Elt Ideal)) (e : (⟨S2x3200000, .i32⟩ : BufTy).Contents (Elt Ideal)) (w : (⟨S3200000, .f32⟩ : BufTy).Contents (Elt Ideal))
    (W4 : (⟨S8x10, .f32⟩ : BufTy).Contents (Elt Ideal)) (b4 : (⟨S10, .f32⟩ : BufTy).Contents (Elt Ideal)) : (⟨S100000x10, .f32⟩ : BufTy).Contents (Elt Ideal) :=
  logSoftmax (pass10 (dense (h3 : S100000x8.Idx → EReal) (W4 : S8x10.Idx → EReal)) (edgeSrc e) (edgeDst e) w b4)

/-- THE NETWORK: the four layers composed. -/
def network (x : (⟨S100000x512, .f32⟩ : BufTy).Contents (Elt Ideal)) (e : (⟨S2x3200000, .i32⟩ : BufTy).Contents (Elt Ideal)) (w : (⟨S3200000, .f32⟩ : BufTy).Contents (Elt Ideal))
    (W1 : (⟨S512x8, .f32⟩ : BufTy).Contents (Elt Ideal)) (b1 : (⟨S8, .f32⟩ : BufTy).Contents (Elt Ideal)) (W2 : (⟨S8x16, .f32⟩ : BufTy).Contents (Elt Ideal)) (b2 : (⟨S16, .f32⟩ : BufTy).Contents (Elt Ideal))
    (W3 : (⟨S16x8, .f32⟩ : BufTy).Contents (Elt Ideal)) (b3 : (⟨S8, .f32⟩ : BufTy).Contents (Elt Ideal)) (W4 : (⟨S8x10, .f32⟩ : BufTy).Contents (Elt Ideal)) (b4 : (⟨S10, .f32⟩ : BufTy).Contents (Elt Ideal)) :
    (⟨S100000x10, .f32⟩ : BufTy).Contents (Elt Ideal) :=
  output (hidden3 (hidden2 (hidden1 x e w W1 b1) e w W2 b2) e w W3 b3) e w W4 b4

end Cert.KernelIdeal.Net

end
-- ==== Proof.Product0.lean ====
/-
  Layer 1's dense transform on the device is the dense transform of the arrays it finds.

  The device computes x @ W1 fifty rows-blocks at a time: at grid point t it reads rows 2000·t … 2000·t + 1999 of the
  feature array [100000, 512] and the whole weight array [512, 8], rounds both to the narrower float format (which changes
  nothing over the extended reals), multiplies them on the matrix unit from the zero splat, and writes the [2000, 8]
  result back as rows 2000·t … of the output array. Entry (p, f) of the block's result is Σ_k x[2000·t + p, k] · w[k, f],
  which is entry (2000·t + p, f) of the dense transform of the whole arrays; the fifty blocks tile the output's rows (row i
  lies in block i / 2000), so when the region is left the output array IS the dense transform of the two arrays as the
  region found them.
-/
import proofs.«136045_j24721831756423_1_alg».proof.Proof.Gen.KernelIdeal.Frame
import proofs.«136045_j24721831756423_1_alg».proof.Proof.Dense
import Idealize.ShloMosaic.Lib.Pipeline.Value

set_option maxRecDepth 16384

noncomputable section

open scoped BigOperators

namespace Cert.KernelIdeal.Net

open Cert.KernelIdeal Cert.KernelIdeal.Gen Cert.Net
open Idealize.ShloMosaic Idealize.ShloMosaic.TcCoe Idealize.ShloMosaic.ValueIdx Idealize.ShloMosaic.DotInner Idealize.SL.Sem
open Idealize.ShloMosaic.Pipeline (Dat)

variable (V : (c : Dev nD) → (b : Ref sig .tc) → Buf (Elt Ideal) ((c : Thread nD τ).loc b))

/-- The block product's dimension numbers say rows by columns: one shared axis of extent 512. -/
theorem plain0 : Plain (M := 2000) (K := 512) (N := 8) dot_S2000x512_S512x8_S2000x8_1_0_0_1_n_n :=
  plain_record dot_S2000x512_S512x8_S2000x8_1_0_0_1_n_n, S2000x512, S512x8

/-- The stored value at entry (p, f) of a block: the sum over the shared axis of the loaded rows against the loaded weights
    (the rounding to the narrower format is the identity here). -/
theorem stored0_apply (x0 : Vec Ideal S2000x512 .f32) (x1 : Vec Ideal S512x8 .f32) (p : Fin 2000) (f : Fin 8) :
    k0_pay1 (F := Ideal) x0 x1 (ix2 p f) = ∑ k : Fin 512, x0 (ix2 p k) * x1 (ix2 k f) := by
  unfold k0_pay1
  exact unit_apply plain0 none _ _ p f

/-- The block index maps over the grid: the feature and the output windows move with the point along the rows, the weight
    window stays. -/
theorem index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem point0_lt (t : Fin cfg0.N) : t.val < 50 := t.isLt.trans_eq N_0

/-- The feature window's block at point t is rows 2000·t … of the feature array. -/
theorem rows0_apply (c : Dev nD) (t : Fin cfg0.N) (y : S2000x512.Idx) (i : S100000x512.Idx)
    (h0 : (i 0).val = 2000 * t.val + (y 0).val) (h1 : (i 1).val = (y 1).val) :
    (iblk0 V c 0 t : Vec Ideal S2000x512 .f32) y = (V c main_arg0 : S100000x512.Idx → Elt Ideal .f32) i := by
  obtain ⟨e0, e1, -, -, -, -⟩ := index0 t
  unfold iblk0
  rw [View.read_apply]
  show V c main_arg0 _ = V c main_arg0 _
  congr 1
  funext a
  apply Fin.ext
  match a with
  | ⟨0, _⟩ => show win0_0.index t 0 * 2000 + 1 * (y 0).val = (i 0).val; rw [e0, h0]; omega
  | ⟨1, _⟩ => show win0_0.index t 1 * 512 + 1 * (y 1).val = (i 1).val; rw [e1, h1]; omega

/-- The weight window's block at every point is the whole weight array. -/
theorem weights0_apply (c : Dev nD) (t : Fin cfg0.N) (y : S512x8.Idx) :
    (iblk0 V c 1 t : Vec Ideal S512x8 .f32) y = (V c main_arg3 : S512x8.Idx → Elt Ideal .f32) y := by
  obtain ⟨-, -, e0, e1, -, -⟩ := index0 t
  unfold iblk0
  rw [View.read_apply]
  show V c main_arg3 _ = V c main_arg3 _
  congr 1
  funext a
  apply Fin.ext
  match a with
  | ⟨0, _⟩ => show win0_1.index t 0 * 512 + 1 * (y 0).val = (y 0).val; rw [e0]; omega
  | ⟨1, _⟩ => show win0_1.index t 1 * 8 + 1 * (y 1).val = (y 1).val; rw [e1]; omega

/-- Entry (p, f) of what point t stores is entry (2000·t + p, f) of the dense transform of the whole arrays. -/
theorem block0_entry (c : Dev nD) (t : Fin cfg0.N) (p : Fin 2000) (f : Fin 8) (q : Fin 100000)
    (hq : q.val = 2000 * t.val + p.val) :
    k0_pay1 (F := Ideal) (iblk0 V c 0 t) (iblk0 V c 1 t) (ix2 p f)
      = dense (V c main_arg0 : S100000x512.Idx → EReal) (V c main_arg3 : S512x8.Idx → EReal) (ix2 q f) := by
  refine (stored0_apply (iblk0 V c 0 t) (iblk0 V c 1 t) p f).trans ?_
  rw [dense_apply]
  refine Finset.sum_congr rfl fun k _ => ?_
  rw [rows0_apply V c t (ix2 p k) (ix2 q k) hq rfl, weights0_apply V c t (ix2 k f)]

theorem origin0 : (![0, 0] : Fin 2 → Nat) = fun _ => 0 := funext fun a => by fin_cases a <;> rfl

/-- What point t writes back is block t of the dense transform of the arrays as the region finds them. -/
theorem flushed0_eq (c : Dev nD) (t : Fin cfg0.N) :
    (dat0 V c).flushed 2 t
      = ((cfg0.win 2).blk t).view.read (Elt Ideal) (dense (V c main_arg0 : S100000x512.Idx → EReal) (V c main_arg3 : S512x8.Idx → EReal)) := by
  show (cfg0.win 2).cut (grid0.coords t) ((dat0 V c).after 2 t) = _
  rw [after0_2]
  unfold out0_2
  rw [View.canon_unit_zero origin0]
  simp only [View.ld_unit_zero (S := S2000x512) origin0, View.ld_unit_zero (S := S512x8) origin0]
  obtain ⟨-, -, -, -, e0, e1⟩ := index0 t
  have ht := point0_lt t
  funext j
  have hj0 : (j 0).val < 2000 := (j 0).isLt
  have hj1 : (j 1).val < 8 := (j 1).isLt
  show k0_pay1 (F := Ideal) (iblk0 V c 0 t) (iblk0 V c 1 t) j
    = dense (V c main_arg0 : S100000x512.Idx → EReal) (V c main_arg3 : S512x8.Idx → EReal) (((cfg0.win 2).blk t).view.emb j)
  have hj : j = ix2 (⟨(j 0).val, hj0⟩ : Fin 2000) (⟨(j 1).val, hj1⟩ : Fin 8) := by
    funext a; match a with | ⟨0, _⟩ => rfl | ⟨1, _⟩ => rfl
  have hemb : ((cfg0.win 2).blk t).view.emb j
      = ix2 (⟨2000 * t.val + (j 0).val, by omega⟩ : Fin 100000) (⟨(j 1).val, hj1⟩ : Fin 8) := by
    funext a
    apply Fin.ext
    match a with
    | ⟨0, _⟩ => show win0_2.index t 0 * 2000 + 1 * (j 0).val = 2000 * t.val + (j 0).val; rw [e0]; omega
    | ⟨1, _⟩ => show win0_2.index t 1 * 8 + 1 * (j 1).val = (j 1).val; rw [e1]; omega
  rw [hemb]
  refine (congrArg (k0_pay1 (F := Ideal) (iblk0 V c 0 t) (iblk0 V c 1 t)) hj).trans ?_
  exact block0_entry V c t _ _ _ rfl

/-- An index of the output array is in point t's block iff its row is among rows 2000·t … 2000·t + 1999. -/
theorem mem_block0 (t : Fin cfg0.N) (i : S100000x8.Idx) :
    i ∈ ((cfg0.win 2).blk t).view.set ↔ ∀ a : Fin 2, win0_2.index t a * S2000x8.size a ≤ (i a).val ∧ (i a).val < win0_2.index t a * S2000x8.size a + S2000x8.size a := by
  show i ∈ ((View.whole main_v4).slice (win0_2.rect t)).set ↔ _
  rw [View.set_slice_whole, Rect.mem_set_unit]
  exact Iff.rfl

/-- The fifty blocks tile the output's rows: row i lies in the block of point i / 2000, which writes back. -/
theorem cover0 (i : S100000x8.Idx) : ∃ t : Fin cfg0.N, (cfg0.win 2).flush t = true ∧ i ∈ ((cfg0.win 2).blk t).view.set := by
  have hi0 : (i 0).val < 100000 := (i 0).isLt
  have hi1 : (i 1).val < 8 := (i 1).isLt
  refine ⟨⟨(i 0).val / 2000, by show _ < grid0.N; rw [N_0]; omega⟩, flush0_2 _, ?_⟩
  rw [mem_block0]
  obtain ⟨-, -, -, -, e0, e1⟩ := index0 ⟨(i 0).val / 2000, by show _ < grid0.N; rw [N_0]; omega⟩
  intro a
  match a with
  | ⟨0, _⟩ =>
    show win0_2.index _ 0 * 2000 ≤ (i 0).val ∧ (i 0).val < win0_2.index _ 0 * 2000 + 2000
    rw [e0]; show (i 0).val / 2000 * 2000 ≤ (i 0).val ∧ (i 0).val < (i 0).val / 2000 * 2000 + 2000; omega
  | ⟨1, _⟩ =>
    show win0_2.index _ 1 * 8 ≤ (i 1).val ∧ (i 1).val < win0_2.index _ 1 * 8 + 8
    rw [e1]; omega

/-- THE OUTPUT ARRAY when the region is left: the dense transform of the feature and weight arrays as the region found them. -/
theorem product0 (c : Dev nD) :
    (dat0 V c).arrAt 2 cfg0.N = dense (V c main_arg0 : S100000x512.Idx → EReal) (V c main_arg3 : S512x8.Idx → EReal) :=
  (dat0 V c).arrAt_eq_of_cover 2 _ (fun t _ => flushed0_eq V c t) (cover0)

end Cert.KernelIdeal.Net

end
-- ==== Proof.Product1.lean ====
/-
  Layer 2's dense transform on the device is the dense transform of the arrays it finds.

  The device computes h1 @ W2 fifty rows-blocks at a time: at grid point t it reads rows 2000·t … 2000·t + 1999 of the
  feature array [100000, 8] and the whole weight array [8, 16], rounds both to the narrower float format (which changes
  nothing over the extended reals), multiplies them on the matrix unit from the zero splat, and writes the [2000, 16]
  result back as rows 2000·t … of the output array. Entry (p, f) of the block's result is Σ_k x[2000·t + p, k] · w[k, f],
  which is entry (2000·t + p, f) of the dense transform of the whole arrays; the fifty blocks tile the output's rows (row i
  lies in block i / 2000), so when the region is left the output array IS the dense transform of the two arrays as the
  region found them.
-/
import proofs.«136045_j24721831756423_1_alg».proof.Proof.Gen.KernelIdeal.Frame
import proofs.«136045_j24721831756423_1_alg».proof.Proof.Dense
import Idealize.ShloMosaic.Lib.Pipeline.Value

set_option maxRecDepth 16384

noncomputable section

open scoped BigOperators

namespace Cert.KernelIdeal.Net

open Cert.KernelIdeal Cert.KernelIdeal.Gen Cert.Net
open Idealize.ShloMosaic Idealize.ShloMosaic.TcCoe Idealize.ShloMosaic.ValueIdx Idealize.ShloMosaic.DotInner Idealize.SL.Sem
open Idealize.ShloMosaic.Pipeline (Dat)

variable (V : (c : Dev nD) → (b : Ref sig .tc) → Buf (Elt Ideal) ((c : Thread nD τ).loc b))

/-- The block product's dimension numbers say rows by columns: one shared axis of extent 8. -/
theorem plain1 : Plain (M := 2000) (K := 8) (N := 16) dot_S2000x8_S8x16_S2000x16_1_0_0_1_n_n :=
  plain_record dot_S2000x8_S8x16_S2000x16_1_0_0_1_n_n, S2000x8, S8x16

/-- The stored value at entry (p, f) of a block: the sum over the shared axis of the loaded rows against the loaded weights
    (the reshape of the loaded rows to their own shape and the rounding to the narrower format are both the identity here). -/
theorem stored1_apply (x0 : Vec Ideal S2000x8 .f32) (x1 : Vec Ideal S8x16 .f32) (p : Fin 2000) (f : Fin 16) :
    k1_pay1 (F := Ideal) x0 x1 (ix2 p f) = ∑ k : Fin 8, x0 (ix2 p k) * x1 (ix2 k f) := by
  unfold k1_pay1
  refine (unit_apply plain1 none _ _ p f).trans ?_
  refine Finset.sum_congr rfl fun k _ => ?_
  exact congrArg (fun z => z * x1 (ix2 k f)) (congrFun (shapeCast_self x0 shapeCasts_S2000x8_S2000x8) (ix2 p k))

/-- The block index maps over the grid: the feature and the output windows move with the point along the rows, the weight
    window stays. -/
theorem index1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem point1_lt (t : Fin cfg1.N) : t.val < 50 := t.isLt.trans_eq N_1

/-- The feature window's block at point t is rows 2000·t … of the feature array. -/
theorem rows1_apply (c : Dev nD) (t : Fin cfg1.N) (y : S2000x8.Idx) (i : S100000x8.Idx)
    (h0 : (i 0).val = 2000 * t.val + (y 0).val) (h1 : (i 1).val = (y 1).val) :
    (iblk1 V c 0 t : Vec Ideal S2000x8 .f32) y = (V c main_v21 : S100000x8.Idx → Elt Ideal .f32) i := by
  obtain ⟨e0, e1, -, -, -, -⟩ := index1 t
  unfold iblk1
  rw [View.read_apply]
  show V c main_v21 _ = V c main_v21 _
  congr 1
  funext a
  apply Fin.ext
  match a with
  | ⟨0, _⟩ => show win1_0.index t 0 * 2000 + 1 * (y 0).val = (i 0).val; rw [e0, h0]; omega
  | ⟨1, _⟩ => show win1_0.index t 1 * 8 + 1 * (y 1).val = (i 1).val; rw [e1, h1]; omega

/-- The weight window's block at every point is the whole weight array. -/
theorem weights1_apply (c : Dev nD) (t : Fin cfg1.N) (y : S8x16.Idx) :
    (iblk1 V c 1 t : Vec Ideal S8x16 .f32) y = (V c main_arg5 : S8x16.Idx → Elt Ideal .f32) y := by
  obtain ⟨-, -, e0, e1, -, -⟩ := index1 t
  unfold iblk1
  rw [View.read_apply]
  show V c main_arg5 _ = V c main_arg5 _
  congr 1
  funext a
  apply Fin.ext
  match a with
  | ⟨0, _⟩ => show win1_1.index t 0 * 8 + 1 * (y 0).val = (y 0).val; rw [e0]; omega
  | ⟨1, _⟩ => show win1_1.index t 1 * 16 + 1 * (y 1).val = (y 1).val; rw [e1]; omega

/-- Entry (p, f) of what point t stores is entry (2000·t + p, f) of the dense transform of the whole arrays. -/
theorem block1_entry (c : Dev nD) (t : Fin cfg1.N) (p : Fin 2000) (f : Fin 16) (q : Fin 100000)
    (hq : q.val = 2000 * t.val + p.val) :
    k1_pay1 (F := Ideal) (iblk1 V c 0 t) (iblk1 V c 1 t) (ix2 p f)
      = dense (V c main_v21 : S100000x8.Idx → EReal) (V c main_arg5 : S8x16.Idx → EReal) (ix2 q f) := by
  refine (stored1_apply (iblk1 V c 0 t) (iblk1 V c 1 t) p f).trans ?_
  rw [dense_apply]
  refine Finset.sum_congr rfl fun k _ => ?_
  rw [rows1_apply V c t (ix2 p k) (ix2 q k) hq rfl, weights1_apply V c t (ix2 k f)]

theorem origin1 : (![0, 0] : Fin 2 → Nat) = fun _ => 0 := funext fun a => by fin_cases a <;> rfl

/-- What point t writes back is block t of the dense transform of the arrays as the region finds them. -/
theorem flushed1_eq (c : Dev nD) (t : Fin cfg1.N) :
    (dat1 V c).flushed 2 t
      = ((cfg1.win 2).blk t).view.read (Elt Ideal) (dense (V c main_v21 : S100000x8.Idx → EReal) (V c main_arg5 : S8x16.Idx → EReal)) := by
  show (cfg1.win 2).cut (grid1.coords t) ((dat1 V c).after 2 t) = _
  rw [after1_2]
  unfold out1_2
  rw [View.canon_unit_zero origin1]
  simp only [View.ld_unit_zero (S := S2000x8) origin1, View.ld_unit_zero (S := S8x16) origin1]
  obtain ⟨-, -, -, -, e0, e1⟩ := index1 t
  have ht := point1_lt t
  funext j
  have hj0 : (j 0).val < 2000 := (j 0).isLt
  have hj1 : (j 1).val < 16 := (j 1).isLt
  show k1_pay1 (F := Ideal) (iblk1 V c 0 t) (iblk1 V c 1 t) j
    = dense (V c main_v21 : S100000x8.Idx → EReal) (V c main_arg5 : S8x16.Idx → EReal) (((cfg1.win 2).blk t).view.emb j)
  have hj : j = ix2 (⟨(j 0).val, hj0⟩ : Fin 2000) (⟨(j 1).val, hj1⟩ : Fin 16) := by
    funext a; match a with | ⟨0, _⟩ => rfl | ⟨1, _⟩ => rfl
  have hemb : ((cfg1.win 2).blk t).view.emb j
      = ix2 (⟨2000 * t.val + (j 0).val, by omega⟩ : Fin 100000) (⟨(j 1).val, hj1⟩ : Fin 16) := by
    funext a
    apply Fin.ext
    match a with
    | ⟨0, _⟩ => show win1_2.index t 0 * 2000 + 1 * (j 0).val = 2000 * t.val + (j 0).val; rw [e0]; omega
    | ⟨1, _⟩ => show win1_2.index t 1 * 16 + 1 * (j 1).val = (j 1).val; rw [e1]; omega
  rw [hemb]
  refine (congrArg (k1_pay1 (F := Ideal) (iblk1 V c 0 t) (iblk1 V c 1 t)) hj).trans ?_
  exact block1_entry V c t _ _ _ rfl

/-- An index of the output array is in point t's block iff its row is among rows 2000·t … 2000·t + 1999. -/
theorem mem_block1 (t : Fin cfg1.N) (i : S100000x16.Idx) :
    i ∈ ((cfg1.win 2).blk t).view.set ↔ ∀ a : Fin 2, win1_2.index t a * S2000x16.size a ≤ (i a).val ∧ (i a).val < win1_2.index t a * S2000x16.size a + S2000x16.size a := by
  show i ∈ ((View.whole main_v22).slice (win1_2.rect t)).set ↔ _
  rw [View.set_slice_whole, Rect.mem_set_unit]
  exact Iff.rfl

/-- The fifty blocks tile the output's rows: row i lies in the block of point i / 2000, which writes back. -/
theorem cover1 (i : S100000x16.Idx) : ∃ t : Fin cfg1.N, (cfg1.win 2).flush t = true ∧ i ∈ ((cfg1.win 2).blk t).view.set := by
  have hi0 : (i 0).val < 100000 := (i 0).isLt
  have hi1 : (i 1).val < 16 := (i 1).isLt
  refine ⟨⟨(i 0).val / 2000, by show _ < grid1.N; rw [N_1]; omega⟩, flush1_2 _, ?_⟩
  rw [mem_block1]
  obtain ⟨-, -, -, -, e0, e1⟩ := index1 ⟨(i 0).val / 2000, by show _ < grid1.N; rw [N_1]; omega⟩
  intro a
  match a with
  | ⟨0, _⟩ =>
    show win1_2.index _ 0 * 2000 ≤ (i 0).val ∧ (i 0).val < win1_2.index _ 0 * 2000 + 2000
    rw [e0]; show (i 0).val / 2000 * 2000 ≤ (i 0).val ∧ (i 0).val < (i 0).val / 2000 * 2000 + 2000; omega
  | ⟨1, _⟩ =>
    show win1_2.index _ 1 * 16 ≤ (i 1).val ∧ (i 1).val < win1_2.index _ 1 * 16 + 16
    rw [e1]; omega

/-- THE OUTPUT ARRAY when the region is left: the dense transform of the feature and weight arrays as the region found them. -/
theorem product1 (c : Dev nD) :
    (dat1 V c).arrAt 2 cfg1.N = dense (V c main_v21 : S100000x8.Idx → EReal) (V c main_arg5 : S8x16.Idx → EReal) :=
  (dat1 V c).arrAt_eq_of_cover 2 _ (fun t _ => flushed1_eq V c t) (cover1)

end Cert.KernelIdeal.Net

end
-- ==== Proof.Product2.lean ====
/-
  Layer 3's dense transform on the device is the dense transform of the arrays it finds.

  The device computes h2 @ W3 fifty rows-blocks at a time: at grid point t it reads rows 2000·t … 2000·t + 1999 of the
  feature array [100000, 16] and the whole weight array [16, 8], rounds both to the narrower float format (which changes
  nothing over the extended reals), multiplies them on the matrix unit from the zero splat, and writes the [2000, 8]
  result back as rows 2000·t … of the output array. Entry (p, f) of the block's result is Σ_k x[2000·t + p, k] · w[k, f],
  which is entry (2000·t + p, f) of the dense transform of the whole arrays; the fifty blocks tile the output's rows (row i
  lies in block i / 2000), so when the region is left the output array IS the dense transform of the two arrays as the
  region found them.
-/
import proofs.«136045_j24721831756423_1_alg».proof.Proof.Gen.KernelIdeal.Frame
import proofs.«136045_j24721831756423_1_alg».proof.Proof.Dense
import Idealize.ShloMosaic.Lib.Pipeline.Value

set_option maxRecDepth 16384

noncomputable section

open scoped BigOperators

namespace Cert.KernelIdeal.Net

open Cert.KernelIdeal Cert.KernelIdeal.Gen Cert.Net
open Idealize.ShloMosaic Idealize.ShloMosaic.TcCoe Idealize.ShloMosaic.ValueIdx Idealize.ShloMosaic.DotInner Idealize.SL.Sem
open Idealize.ShloMosaic.Pipeline (Dat)

variable (V : (c : Dev nD) → (b : Ref sig .tc) → Buf (Elt Ideal) ((c : Thread nD τ).loc b))

/-- The block product's dimension numbers say rows by columns: one shared axis of extent 16. -/
theorem plain2 : Plain (M := 2000) (K := 16) (N := 8) dot_S2000x16_S16x8_S2000x8_1_0_0_1_n_n :=
  plain_record dot_S2000x16_S16x8_S2000x8_1_0_0_1_n_n, S2000x16, S16x8

/-- The stored value at entry (p, f) of a block: the sum over the shared axis of the loaded rows against the loaded weights
    (the reshape of the loaded rows to their own shape and the rounding to the narrower format are both the identity here). -/
theorem stored2_apply (x0 : Vec Ideal S2000x16 .f32) (x1 : Vec Ideal S16x8 .f32) (p : Fin 2000) (f : Fin 8) :
    k2_pay1 (F := Ideal) x0 x1 (ix2 p f) = ∑ k : Fin 16, x0 (ix2 p k) * x1 (ix2 k f) := by
  unfold k2_pay1
  refine (unit_apply plain2 none _ _ p f).trans ?_
  refine Finset.sum_congr rfl fun k _ => ?_
  exact congrArg (fun z => z * x1 (ix2 k f)) (congrFun (shapeCast_self x0 shapeCasts_S2000x16_S2000x16) (ix2 p k))

/-- The block index maps over the grid: the feature and the output windows move with the point along the rows, the weight
    window stays. -/
theorem index2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem point2_lt (t : Fin cfg2.N) : t.val < 50 := t.isLt.trans_eq N_2

/-- The feature window's block at point t is rows 2000·t … of the feature array. -/
theorem rows2_apply (c : Dev nD) (t : Fin cfg2.N) (y : S2000x16.Idx) (i : S100000x16.Idx)
    (h0 : (i 0).val = 2000 * t.val + (y 0).val) (h1 : (i 1).val = (y 1).val) :
    (iblk2 V c 0 t : Vec Ideal S2000x16 .f32) y = (V c main_v39 : S100000x16.Idx → Elt Ideal .f32) i := by
  obtain ⟨e0, e1, -, -, -, -⟩ := index2 t
  unfold iblk2
  rw [View.read_apply]
  show V c main_v39 _ = V c main_v39 _
  congr 1
  funext a
  apply Fin.ext
  match a with
  | ⟨0, _⟩ => show win2_0.index t 0 * 2000 + 1 * (y 0).val = (i 0).val; rw [e0, h0]; omega
  | ⟨1, _⟩ => show win2_0.index t 1 * 16 + 1 * (y 1).val = (i 1).val; rw [e1, h1]; omega

/-- The weight window's block at every point is the whole weight array. -/
theorem weights2_apply (c : Dev nD) (t : Fin cfg2.N) (y : S16x8.Idx) :
    (iblk2 V c 1 t : Vec Ideal S16x8 .f32) y = (V c main_arg7 : S16x8.Idx → Elt Ideal .f32) y := by
  obtain ⟨-, -, e0, e1, -, -⟩ := index2 t
  unfold iblk2
  rw [View.read_apply]
  show V c main_arg7 _ = V c main_arg7 _
  congr 1
  funext a
  apply Fin.ext
  match a with
  | ⟨0, _⟩ => show win2_1.index t 0 * 16 + 1 * (y 0).val = (y 0).val; rw [e0]; omega
  | ⟨1, _⟩ => show win2_1.index t 1 * 8 + 1 * (y 1).val = (y 1).val; rw [e1]; omega

/-- Entry (p, f) of what point t stores is entry (2000·t + p, f) of the dense transform of the whole arrays. -/
theorem block2_entry (c : Dev nD) (t : Fin cfg2.N) (p : Fin 2000) (f : Fin 8) (q : Fin 100000)
    (hq : q.val = 2000 * t.val + p.val) :
    k2_pay1 (F := Ideal) (iblk2 V c 0 t) (iblk2 V c 1 t) (ix2 p f)
      = dense (V c main_v39 : S100000x16.Idx → EReal) (V c main_arg7 : S16x8.Idx → EReal) (ix2 q f) := by
  refine (stored2_apply (iblk2 V c 0 t) (iblk2 V c 1 t) p f).trans ?_
  rw [dense_apply]
  refine Finset.sum_congr rfl fun k _ => ?_
  rw [rows2_apply V c t (ix2 p k) (ix2 q k) hq rfl, weights2_apply V c t (ix2 k f)]

theorem origin2 : (![0, 0] : Fin 2 → Nat) = fun _ => 0 := funext fun a => by fin_cases a <;> rfl

/-- What point t writes back is block t of the dense transform of the arrays as the region finds them. -/
theorem flushed2_eq (c : Dev nD) (t : Fin cfg2.N) :
    (dat2 V c).flushed 2 t
      = ((cfg2.win 2).blk t).view.read (Elt Ideal) (dense (V c main_v39 : S100000x16.Idx → EReal) (V c main_arg7 : S16x8.Idx → EReal)) := by
  show (cfg2.win 2).cut (grid2.coords t) ((dat2 V c).after 2 t) = _
  rw [after2_2]
  unfold out2_2
  rw [View.canon_unit_zero origin2]
  simp only [View.ld_unit_zero (S := S2000x16) origin2, View.ld_unit_zero (S := S16x8) origin2]
  obtain ⟨-, -, -, -, e0, e1⟩ := index2 t
  have ht := point2_lt t
  funext j
  have hj0 : (j 0).val < 2000 := (j 0).isLt
  have hj1 : (j 1).val < 8 := (j 1).isLt
  show k2_pay1 (F := Ideal) (iblk2 V c 0 t) (iblk2 V c 1 t) j
    = dense (V c main_v39 : S100000x16.Idx → EReal) (V c main_arg7 : S16x8.Idx → EReal) (((cfg2.win 2).blk t).view.emb j)
  have hj : j = ix2 (⟨(j 0).val, hj0⟩ : Fin 2000) (⟨(j 1).val, hj1⟩ : Fin 8) := by
    funext a; match a with | ⟨0, _⟩ => rfl | ⟨1, _⟩ => rfl
  have hemb : ((cfg2.win 2).blk t).view.emb j
      = ix2 (⟨2000 * t.val + (j 0).val, by omega⟩ : Fin 100000) (⟨(j 1).val, hj1⟩ : Fin 8) := by
    funext a
    apply Fin.ext
    match a with
    | ⟨0, _⟩ => show win2_2.index t 0 * 2000 + 1 * (j 0).val = 2000 * t.val + (j 0).val; rw [e0]; omega
    | ⟨1, _⟩ => show win2_2.index t 1 * 8 + 1 * (j 1).val = (j 1).val; rw [e1]; omega
  rw [hemb]
  refine (congrArg (k2_pay1 (F := Ideal) (iblk2 V c 0 t) (iblk2 V c 1 t)) hj).trans ?_
  exact block2_entry V c t _ _ _ rfl

/-- An index of the output array is in point t's block iff its row is among rows 2000·t … 2000·t + 1999. -/
theorem mem_block2 (t : Fin cfg2.N) (i : S100000x8.Idx) :
    i ∈ ((cfg2.win 2).blk t).view.set ↔ ∀ a : Fin 2, win2_2.index t a * S2000x8.size a ≤ (i a).val ∧ (i a).val < win2_2.index t a * S2000x8.size a + S2000x8.size a := by
  show i ∈ ((View.whole main_v40).slice (win2_2.rect t)).set ↔ _
  rw [View.set_slice_whole, Rect.mem_set_unit]
  exact Iff.rfl

/-- The fifty blocks tile the output's rows: row i lies in the block of point i / 2000, which writes back. -/
theorem cover2 (i : S100000x8.Idx) : ∃ t : Fin cfg2.N, (cfg2.win 2).flush t = true ∧ i ∈ ((cfg2.win 2).blk t).view.set := by
  have hi0 : (i 0).val < 100000 := (i 0).isLt
  have hi1 : (i 1).val < 8 := (i 1).isLt
  refine ⟨⟨(i 0).val / 2000, by show _ < grid2.N; rw [N_2]; omega⟩, flush2_2 _, ?_⟩
  rw [mem_block2]
  obtain ⟨-, -, -, -, e0, e1⟩ := index2 ⟨(i 0).val / 2000, by show _ < grid2.N; rw [N_2]; omega⟩
  intro a
  match a with
  | ⟨0, _⟩ =>
    show win2_2.index _ 0 * 2000 ≤ (i 0).val ∧ (i 0).val < win2_2.index _ 0 * 2000 + 2000
    rw [e0]; show (i 0).val / 2000 * 2000 ≤ (i 0).val ∧ (i 0).val < (i 0).val / 2000 * 2000 + 2000; omega
  | ⟨1, _⟩ =>
    show win2_2.index _ 1 * 8 ≤ (i 1).val ∧ (i 1).val < win2_2.index _ 1 * 8 + 8
    rw [e1]; omega

/-- THE OUTPUT ARRAY when the region is left: the dense transform of the feature and weight arrays as the region found them. -/
theorem product2 (c : Dev nD) :
    (dat2 V c).arrAt 2 cfg2.N = dense (V c main_v39 : S100000x16.Idx → EReal) (V c main_arg7 : S16x8.Idx → EReal) :=
  (dat2 V c).arrAt_eq_of_cover 2 _ (fun t _ => flushed2_eq V c t) (cover2)

end Cert.KernelIdeal.Net

end
-- ==== Proof.Product3.lean ====
/-
  Layer 4's dense transform on the device is the dense transform of the arrays it finds.

  The device computes h3 @ W4 fifty rows-blocks at a time: at grid point t it reads rows 2000·t … 2000·t + 1999 of the
  feature array [100000, 8] and the whole weight array [8, 10], rounds both to the narrower float format (which changes
  nothing over the extended reals), multiplies them on the matrix unit from the zero splat, and writes the [2000, 10]
  result back as rows 2000·t … of the output array. Entry (p, f) of the block's result is Σ_k x[2000·t + p, k] · w[k, f],
  which is entry (2000·t + p, f) of the dense transform of the whole arrays; the fifty blocks tile the output's rows (row i
  lies in block i / 2000), so when the region is left the output array IS the dense transform of the two arrays as the
  region found them.
-/
import proofs.«136045_j24721831756423_1_alg».proof.Proof.Gen.KernelIdeal.Frame
import proofs.«136045_j24721831756423_1_alg».proof.Proof.Dense
import Idealize.ShloMosaic.Lib.Pipeline.Value

set_option maxRecDepth 16384

noncomputable section

open scoped BigOperators

namespace Cert.KernelIdeal.Net

open Cert.KernelIdeal Cert.KernelIdeal.Gen Cert.Net
open Idealize.ShloMosaic Idealize.ShloMosaic.TcCoe Idealize.ShloMosaic.ValueIdx Idealize.ShloMosaic.DotInner Idealize.SL.Sem
open Idealize.ShloMosaic.Pipeline (Dat)

variable (V : (c : Dev nD) → (b : Ref sig .tc) → Buf (Elt Ideal) ((c : Thread nD τ).loc b))

/-- The block product's dimension numbers say rows by columns: one shared axis of extent 8. -/
theorem plain3 : Plain (M := 2000) (K := 8) (N := 10) dot_S2000x8_S8x10_S2000x10_1_0_0_1_n_n :=
  plain_record dot_S2000x8_S8x10_S2000x10_1_0_0_1_n_n, S2000x8, S8x10

/-- The stored value at entry (p, f) of a block: the sum over the shared axis of the loaded rows against the loaded weights
    (the reshape of the loaded rows to their own shape and the rounding to the narrower format are both the identity here). -/
theorem stored3_apply (x0 : Vec Ideal S2000x8 .f32) (x1 : Vec Ideal S8x10 .f32) (p : Fin 2000) (f : Fin 10) :
    k3_pay1 (F := Ideal) x0 x1 (ix2 p f) = ∑ k : Fin 8, x0 (ix2 p k) * x1 (ix2 k f) := by
  unfold k3_pay1
  refine (unit_apply plain3 none _ _ p f).trans ?_
  refine Finset.sum_congr rfl fun k _ => ?_
  exact congrArg (fun z => z * x1 (ix2 k f)) (congrFun (shapeCast_self x0 shapeCasts_S2000x8_S2000x8) (ix2 p k))

/-- The block index maps over the grid: the feature and the output windows move with the point along the rows, the weight
    window stays. -/
theorem index3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

theorem point3_lt (t : Fin cfg3.N) : t.val < 50 := t.isLt.trans_eq N_3

/-- The feature window's block at point t is rows 2000·t … of the feature array. -/
theorem rows3_apply (c : Dev nD) (t : Fin cfg3.N) (y : S2000x8.Idx) (i : S100000x8.Idx)
    (h0 : (i 0).val = 2000 * t.val + (y 0).val) (h1 : (i 1).val = (y 1).val) :
    (iblk3 V c 0 t : Vec Ideal S2000x8 .f32) y = (V c main_v57 : S100000x8.Idx → Elt Ideal .f32) i := by
  obtain ⟨e0, e1, -, -, -, -⟩ := index3 t
  unfold iblk3
  rw [View.read_apply]
  show V c main_v57 _ = V c main_v57 _
  congr 1
  funext a
  apply Fin.ext
  match a with
  | ⟨0, _⟩ => show win3_0.index t 0 * 2000 + 1 * (y 0).val = (i 0).val; rw [e0, h0]; omega
  | ⟨1, _⟩ => show win3_0.index t 1 * 8 + 1 * (y 1).val = (i 1).val; rw [e1, h1]; omega

/-- The weight window's block at every point is the whole weight array. -/
theorem weights3_apply (c : Dev nD) (t : Fin cfg3.N) (y : S8x10.Idx) :
    (iblk3 V c 1 t : Vec Ideal S8x10 .f32) y = (V c main_arg9 : S8x10.Idx → Elt Ideal .f32) y := by
  obtain ⟨-, -, e0, e1, -, -⟩ := index3 t
  unfold iblk3
  rw [View.read_apply]
  show V c main_arg9 _ = V c main_arg9 _
  congr 1
  funext a
  apply Fin.ext
  match a with
  | ⟨0, _⟩ => show win3_1.index t 0 * 8 + 1 * (y 0).val = (y 0).val; rw [e0]; omega
  | ⟨1, _⟩ => show win3_1.index t 1 * 10 + 1 * (y 1).val = (y 1).val; rw [e1]; omega

/-- Entry (p, f) of what point t stores is entry (2000·t + p, f) of the dense transform of the whole arrays. -/
theorem block3_entry (c : Dev nD) (t : Fin cfg3.N) (p : Fin 2000) (f : Fin 10) (q : Fin 100000)
    (hq : q.val = 2000 * t.val + p.val) :
    k3_pay1 (F := Ideal) (iblk3 V c 0 t) (iblk3 V c 1 t) (ix2 p f)
      = dense (V c main_v57 : S100000x8.Idx → EReal) (V c main_arg9 : S8x10.Idx → EReal) (ix2 q f) := by
  refine (stored3_apply (iblk3 V c 0 t) (iblk3 V c 1 t) p f).trans ?_
  rw [dense_apply]
  refine Finset.sum_congr rfl fun k _ => ?_
  rw [rows3_apply V c t (ix2 p k) (ix2 q k) hq rfl, weights3_apply V c t (ix2 k f)]

theorem origin3 : (![0, 0] : Fin 2 → Nat) = fun _ => 0 := funext fun a => by fin_cases a <;> rfl

/-- What point t writes back is block t of the dense transform of the arrays as the region finds them. -/
theorem flushed3_eq (c : Dev nD) (t : Fin cfg3.N) :
    (dat3 V c).flushed 2 t
      = ((cfg3.win 2).blk t).view.read (Elt Ideal) (dense (V c main_v57 : S100000x8.Idx → EReal) (V c main_arg9 : S8x10.Idx → EReal)) := by
  show (cfg3.win 2).cut (grid3.coords t) ((dat3 V c).after 2 t) = _
  rw [after3_2]
  unfold out3_2
  rw [View.canon_unit_zero origin3]
  simp only [View.ld_unit_zero (S := S2000x8) origin3, View.ld_unit_zero (S := S8x10) origin3]
  obtain ⟨-, -, -, -, e0, e1⟩ := index3 t
  have ht := point3_lt t
  funext j
  have hj0 : (j 0).val < 2000 := (j 0).isLt
  have hj1 : (j 1).val < 10 := (j 1).isLt
  show k3_pay1 (F := Ideal) (iblk3 V c 0 t) (iblk3 V c 1 t) j
    = dense (V c main_v57 : S100000x8.Idx → EReal) (V c main_arg9 : S8x10.Idx → EReal) (((cfg3.win 2).blk t).view.emb j)
  have hj : j = ix2 (⟨(j 0).val, hj0⟩ : Fin 2000) (⟨(j 1).val, hj1⟩ : Fin 10) := by
    funext a; match a with | ⟨0, _⟩ => rfl | ⟨1, _⟩ => rfl
  have hemb : ((cfg3.win 2).blk t).view.emb j
      = ix2 (⟨2000 * t.val + (j 0).val, by omega⟩ : Fin 100000) (⟨(j 1).val, hj1⟩ : Fin 10) := by
    funext a
    apply Fin.ext
    match a with
    | ⟨0, _⟩ => show win3_2.index t 0 * 2000 + 1 * (j 0).val = 2000 * t.val + (j 0).val; rw [e0]; omega
    | ⟨1, _⟩ => show win3_2.index t 1 * 10 + 1 * (j 1).val = (j 1).val; rw [e1]; omega
  rw [hemb]
  refine (congrArg (k3_pay1 (F := Ideal) (iblk3 V c 0 t) (iblk3 V c 1 t)) hj).trans ?_
  exact block3_entry V c t _ _ _ rfl

/-- An index of the output array is in point t's block iff its row is among rows 2000·t … 2000·t + 1999. -/
theorem mem_block3 (t : Fin cfg3.N) (i : S100000x10.Idx) :
    i ∈ ((cfg3.win 2).blk t).view.set ↔ ∀ a : Fin 2, win3_2.index t a * S2000x10.size a ≤ (i a).val ∧ (i a).val < win3_2.index t a * S2000x10.size a + S2000x10.size a := by
  show i ∈ ((View.whole main_v58).slice (win3_2.rect t)).set ↔ _
  rw [View.set_slice_whole, Rect.mem_set_unit]
  exact Iff.rfl

/-- The fifty blocks tile the output's rows: row i lies in the block of point i / 2000, which writes back. -/
theorem cover3 (i : S100000x10.Idx) : ∃ t : Fin cfg3.N, (cfg3.win 2).flush t = true ∧ i ∈ ((cfg3.win 2).blk t).view.set := by
  have hi0 : (i 0).val < 100000 := (i 0).isLt
  have hi1 : (i 1).val < 10 := (i 1).isLt
  refine ⟨⟨(i 0).val / 2000, by show _ < grid3.N; rw [N_3]; omega⟩, flush3_2 _, ?_⟩
  rw [mem_block3]
  obtain ⟨-, -, -, -, e0, e1⟩ := index3 ⟨(i 0).val / 2000, by show _ < grid3.N; rw [N_3]; omega⟩
  intro a
  match a with
  | ⟨0, _⟩ =>
    show win3_2.index _ 0 * 2000 ≤ (i 0).val ∧ (i 0).val < win3_2.index _ 0 * 2000 + 2000
    rw [e0]; show (i 0).val / 2000 * 2000 ≤ (i 0).val ∧ (i 0).val < (i 0).val / 2000 * 2000 + 2000; omega
  | ⟨1, _⟩ =>
    show win3_2.index _ 1 * 10 ≤ (i 1).val ∧ (i 1).val < win3_2.index _ 1 * 10 + 10
    rw [e1]; omega

/-- THE OUTPUT ARRAY when the region is left: the dense transform of the feature and weight arrays as the region found them. -/
theorem product3 (c : Dev nD) :
    (dat3 V c).arrAt 2 cfg3.N = dense (V c main_v57 : S100000x8.Idx → EReal) (V c main_arg9 : S8x10.Idx → EReal) :=
  (dat3 V c).arrAt_eq_of_cover 2 _ (fun t _ => flushed3_eq V c t) (cover3)

end Cert.KernelIdeal.Net

end
-- ==== Proof.KernelNet.lean ====
/-
  The kernel's program computes the network.

  The contents of the buffers at the thirteen segment boundaries are a fold from the launch memory. Walking it forward:
  after the first stretch the source and destination rows of the edge list are cut out and every argument is as launched;
  a product leaves in its output array the dense transform of the feature and weight arrays it found and touches nothing
  else; a host stretch leaves in its last buffer the layer's host operations of what it found and leaves alone every
  buffer it does not write. The edge rows, the edge weights, and the weights and biases of the later layers are written
  once and read many segments later, so each is carried across every boundary between. The layers' outputs then
  compose: the buffer the program returns holds the network of the eleven arguments.
-/
import proofs.«136045_j24721831756423_1_alg».proof.Proof.Gen.KernelIdeal.Frame
import proofs.«136045_j24721831756423_1_alg».proof.Proof.KernelStretch
import proofs.«136045_j24721831756423_1_alg».proof.Proof.Network
import proofs.«136045_j24721831756423_1_alg».proof.Proof.Product0
import proofs.«136045_j24721831756423_1_alg».proof.Proof.Product1
import proofs.«136045_j24721831756423_1_alg».proof.Proof.Product2
import proofs.«136045_j24721831756423_1_alg».proof.Proof.Product3

set_option maxRecDepth 16384

noncomputable section

namespace Cert.KernelIdeal.Net

open Cert.KernelIdeal Cert.KernelIdeal.Gen Cert.Net
open Idealize.ShloMosaic Idealize.ShloMosaic.TcCoe Idealize.SL.Sem

variable (m : (ℓ : Loc nD τ sig) → Buf (Elt Ideal) ℓ) (ρ : Dev nD → PrngReg) (c : Dev nD)

/-! ## After the first stretch: the edge rows cut out, the arguments as launched -/

theorem at1_v1 : W1 m ρ c (Proc.devRef .tc main_v1) = edgeSrc (m ((c : Thread nD τ).loc main_arg1)) := src_read (W0 m ρ c)
theorem at1_v3 : W1 m ρ c (Proc.devRef .tc main_v3) = edgeDst (m ((c : Thread nD τ).loc main_arg1)) := dst_read (W0 m ρ c)
theorem at1_arg0 : W1 m ρ c (Proc.devRef .tc main_arg0) = m ((c : Thread nD τ).loc main_arg0) := pre_keep_arg0 (W0 m ρ c)
theorem at1_arg2 : W1 m ρ c (Proc.devRef .tc main_arg2) = m ((c : Thread nD τ).loc main_arg2) := pre_keep_arg2 (W0 m ρ c)
theorem at1_arg3 : W1 m ρ c (Proc.devRef .tc main_arg3) = m ((c : Thread nD τ).loc main_arg3) := pre_keep_arg3 (W0 m ρ c)
theorem at1_arg4 : W1 m ρ c (Proc.devRef .tc main_arg4) = m ((c : Thread nD τ).loc main_arg4) := pre_keep_arg4 (W0 m ρ c)
theorem at1_arg5 : W1 m ρ c (Proc.devRef .tc main_arg5) = m ((c : Thread nD τ).loc main_arg5) := pre_keep_arg5 (W0 m ρ c)
theorem at1_arg6 : W1 m ρ c (Proc.devRef .tc main_arg6) = m ((c : Thread nD τ).loc main_arg6) := pre_keep_arg6 (W0 m ρ c)
theorem at1_arg7 : W1 m ρ c (Proc.devRef .tc main_arg7) = m ((c : Thread nD τ).loc main_arg7) := pre_keep_arg7 (W0 m ρ c)
theorem at1_arg8 : W1 m ρ c (Proc.devRef .tc main_arg8) = m ((c : Thread nD τ).loc main_arg8) := pre_keep_arg8 (W0 m ρ c)
theorem at1_arg9 : W1 m ρ c (Proc.devRef .tc main_arg9) = m ((c : Thread nD τ).loc main_arg9) := pre_keep_arg9 (W0 m ρ c)
theorem at1_arg10 : W1 m ρ c (Proc.devRef .tc main_arg10) = m ((c : Thread nD τ).loc main_arg10) := pre_keep_arg10 (W0 m ρ c)

/-! ## Product 1 and what it leaves alone -/

/-- The first product's output array: x @ W1. -/
theorem at2_out : W2 m ρ c (Proc.devRef .tc main_v4)
    = dense (m ((c : Thread nD τ).loc main_arg0) : S100000x512.Idx → EReal) (m ((c : Thread nD τ).loc main_arg3) : S512x8.Idx → EReal) :=
  (W2_arr m ρ c 2).trans ((product0 (V1 m ρ) c).trans (congrArg₂ dense (at1_arg0 m ρ c) (at1_arg3 m ρ c)))

theorem at2_v1 : W2 m ρ c (Proc.devRef .tc main_v1) = edgeSrc (m ((c : Thread nD τ).loc main_arg1)) := (W2_of_ne m ρ c main_v1 (by decide)).trans (at1_v1 m ρ c)
theorem at2_v3 : W2 m ρ c (Proc.devRef .tc main_v3) = edgeDst (m ((c : Thread nD τ).loc main_arg1)) := (W2_of_ne m ρ c main_v3 (by decide)).trans (at1_v3 m ρ c)
theorem at2_arg2 : W2 m ρ c (Proc.devRef .tc main_arg2) = m ((c : Thread nD τ).loc main_arg2) := (W2_of_ne m ρ c main_arg2 (by decide)).trans (at1_arg2 m ρ c)
theorem at2_arg4 : W2 m ρ c (Proc.devRef .tc main_arg4) = m ((c : Thread nD τ).loc main_arg4) := (W2_of_ne m ρ c main_arg4 (by decide)).trans (at1_arg4 m ρ c)
theorem at2_arg5 : W2 m ρ c (Proc.devRef .tc main_arg5) = m ((c : Thread nD τ).loc main_arg5) := (W2_of_ne m ρ c main_arg5 (by decide)).trans (at1_arg5 m ρ c)
theorem at2_arg6 : W2 m ρ c (Proc.devRef .tc main_arg6) = m ((c : Thread nD τ).loc main_arg6) := (W2_of_ne m ρ c main_arg6 (by decide)).trans (at1_arg6 m ρ c)
theorem at2_arg7 : W2 m ρ c (Proc.devRef .tc main_arg7) = m ((c : Thread nD τ).loc main_arg7) := (W2_of_ne m ρ c main_arg7 (by decide)).trans (at1_arg7 m ρ c)
theorem at2_arg8 : W2 m ρ c (Proc.devRef .tc main_arg8) = m ((c : Thread nD τ).loc main_arg8) := (W2_of_ne m ρ c main_arg8 (by decide)).trans (at1_arg8 m ρ c)
theorem at2_arg9 : W2 m ρ c (Proc.devRef .tc main_arg9) = m ((c : Thread nD τ).loc main_arg9) := (W2_of_ne m ρ c main_arg9 (by decide)).trans (at1_arg9 m ρ c)
theorem at2_arg10 : W2 m ρ c (Proc.devRef .tc main_arg10) = m ((c : Thread nD τ).loc main_arg10) := (W2_of_ne m ρ c main_arg10 (by decide)).trans (at1_arg10 m ρ c)

/-! ## The first hidden layer, product 2 and what they leave alone -/

theorem at4_hidden : W4 m ρ c (Proc.devRef .tc main_v21)
    = hidden1 (m ((c : Thread nD τ).loc main_arg0)) (m ((c : Thread nD τ).loc main_arg1)) (m ((c : Thread nD τ).loc main_arg2)) (m ((c : Thread nD τ).loc main_arg3)) (m ((c : Thread nD τ).loc main_arg4)) := by
  refine (layer1_read (W2 m ρ c)).trans ?_
  rw [at2_out m ρ c, at2_v1 m ρ c, at2_v3 m ρ c, at2_arg2 m ρ c, at2_arg4 m ρ c]
  rfl

theorem at4_arg5 : W4 m ρ c (Proc.devRef .tc main_arg5) = m ((c : Thread nD τ).loc main_arg5) := (keep1_arg5 (W2 m ρ c)).trans (at2_arg5 m ρ c)

/-- The second product's output array: h1 @ W2. -/
theorem at5_out : W5 m ρ c (Proc.devRef .tc main_v22)
    = dense (hidden1 (m ((c : Thread nD τ).loc main_arg0)) (m ((c : Thread nD τ).loc main_arg1)) (m ((c : Thread nD τ).loc main_arg2)) (m ((c : Thread nD τ).loc main_arg3)) (m ((c : Thread nD τ).loc main_arg4)) : S100000x8.Idx → EReal)
        (m ((c : Thread nD τ).loc main_arg5) : S8x16.Idx → EReal) :=
  (W5_arr m ρ c 2).trans ((product1 (V4 m ρ) c).trans (congrArg₂ dense (at4_hidden m ρ c) (at4_arg5 m ρ c)))

theorem at5_v1 : W5 m ρ c (Proc.devRef .tc main_v1) = edgeSrc (m ((c : Thread nD τ).loc main_arg1)) :=
  (W5_of_ne m ρ c main_v1 (by decide)).trans ((keep1_v1 (W2 m ρ c)).trans (at2_v1 m ρ c))
theorem at5_v3 : W5 m ρ c (Proc.devRef .tc main_v3) = edgeDst (m ((c : Thread nD τ).loc main_arg1)) :=
  (W5_of_ne m ρ c main_v3 (by decide)).trans ((keep1_v3 (W2 m ρ c)).trans (at2_v3 m ρ c))
theorem at5_arg2 : W5 m ρ c (Proc.devRef .tc main_arg2) = m ((c : Thread nD τ).loc main_arg2) :=
  (W5_of_ne m ρ c main_arg2 (by decide)).trans ((keep1_arg2 (W2 m ρ c)).trans (at2_arg2 m ρ c))
theorem at5_arg6 : W5 m ρ c (Proc.devRef .tc main_arg6) = m ((c : Thread nD τ).loc main_arg6) :=
  (W5_of_ne m ρ c main_arg6 (by decide)).trans ((keep1_arg6 (W2 m ρ c)).trans (at2_arg6 m ρ c))
theorem at5_arg7 : W5 m ρ c (Proc.devRef .tc main_arg7) = m ((c : Thread nD τ).loc main_arg7) :=
  (W5_of_ne m ρ c main_arg7 (by decide)).trans ((keep1_arg7 (W2 m ρ c)).trans (at2_arg7 m ρ c))
theorem at5_arg8 : W5 m ρ c (Proc.devRef .tc main_arg8) = m ((c : Thread nD τ).loc main_arg8) :=
  (W5_of_ne m ρ c main_arg8 (by decide)).trans ((keep1_arg8 (W2 m ρ c)).trans (at2_arg8 m ρ c))
theorem at5_arg9 : W5 m ρ c (Proc.devRef .tc main_arg9) = m ((c : Thread nD τ).loc main_arg9) :=
  (W5_of_ne m ρ c main_arg9 (by decide)).trans ((keep1_arg9 (W2 m ρ c)).trans (at2_arg9 m ρ c))
theorem at5_arg10 : W5 m ρ c (Proc.devRef .tc main_arg10) = m ((c : Thread nD τ).loc main_arg10) :=
  (W5_of_ne m ρ c main_arg10 (by decide)).trans ((keep1_arg10 (W2 m ρ c)).trans (at2_arg10 m ρ c))

/-! ## The second hidden layer, product 3 and what they leave alone -/

theorem at7_hidden : W7 m ρ c (Proc.devRef .tc main_v39)
    = (hidden2 (hidden1 (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg2)) (m ((c : Thread nD τ).loc main_arg5)) (m ((c : Thread nD τ).loc main_arg6))) := by
  refine (layer2_read (W5 m ρ c)).trans ?_
  rw [at5_out m ρ c, at5_v1 m ρ c, at5_v3 m ρ c, at5_arg2 m ρ c, at5_arg6 m ρ c]
  rfl

theorem at7_arg7 : W7 m ρ c (Proc.devRef .tc main_arg7) = m ((c : Thread nD τ).loc main_arg7) := (keep2_arg7 (W5 m ρ c)).trans (at5_arg7 m ρ c)

/-- The third product's output array: h2 @ W3. -/
theorem at8_out : W8 m ρ c (Proc.devRef .tc main_v40)
    = dense ((hidden2 (hidden1 (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg2)) (m ((c : Thread nD τ).loc main_arg5)) (m ((c : Thread nD τ).loc main_arg6))) : S100000x16.Idx → EReal) (m ((c : Thread nD τ).loc main_arg7) : S16x8.Idx → EReal) :=
  (W8_arr m ρ c 2).trans ((product2 (V7 m ρ) c).trans (congrArg₂ dense (at7_hidden m ρ c) (at7_arg7 m ρ c)))

theorem at8_v1 : W8 m ρ c (Proc.devRef .tc main_v1) = edgeSrc (m ((c : Thread nD τ).loc main_arg1)) :=
  (W8_of_ne m ρ c main_v1 (by decide)).trans ((keep2_v1 (W5 m ρ c)).trans (at5_v1 m ρ c))
theorem at8_v3 : W8 m ρ c (Proc.devRef .tc main_v3) = edgeDst (m ((c : Thread nD τ).loc main_arg1)) :=
  (W8_of_ne m ρ c main_v3 (by decide)).trans ((keep2_v3 (W5 m ρ c)).trans (at5_v3 m ρ c))
theorem at8_arg2 : W8 m ρ c (Proc.devRef .tc main_arg2) = m ((c : Thread nD τ).loc main_arg2) :=
  (W8_of_ne m ρ c main_arg2 (by decide)).trans ((keep2_arg2 (W5 m ρ c)).trans (at5_arg2 m ρ c))
theorem at8_arg8 : W8 m ρ c (Proc.devRef .tc main_arg8) = m ((c : Thread nD τ).loc main_arg8) :=
  (W8_of_ne m ρ c main_arg8 (by decide)).trans ((keep2_arg8 (W5 m ρ c)).trans (at5_arg8 m ρ c))
theorem at8_arg9 : W8 m ρ c (Proc.devRef .tc main_arg9) = m ((c : Thread nD τ).loc main_arg9) :=
  (W8_of_ne m ρ c main_arg9 (by decide)).trans ((keep2_arg9 (W5 m ρ c)).trans (at5_arg9 m ρ c))
theorem at8_arg10 : W8 m ρ c (Proc.devRef .tc main_arg10) = m ((c : Thread nD τ).loc main_arg10) :=
  (W8_of_ne m ρ c main_arg10 (by decide)).trans ((keep2_arg10 (W5 m ρ c)).trans (at5_arg10 m ρ c))

/-! ## The third hidden layer, product 4 and what they leave alone -/

theorem at10_hidden : W10 m ρ c (Proc.devRef .tc main_v57)
    = (hidden3 (hidden2 (hidden1 (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg2)) (m ((c : Thread nD τ).loc main_arg5)) (m ((c : Thread nD τ).loc main_arg6))) (m ((c : Thread nD τ).loc main_arg1)) (m ((c : Thread nD τ).loc main_arg2)) (m ((c : Thread nD τ).loc main_arg7)) (m ((c : Thread nD τ).loc main_arg8))) := by
  refine (layer3_read (W8 m ρ c)).trans ?_
  rw [at8_out m ρ c, at8_v1 m ρ c, at8_v3 m ρ c, at8_arg2 m ρ c, at8_arg8 m ρ c]
  rfl

theorem at10_arg9 : W10 m ρ c (Proc.devRef .tc main_arg9) = m ((c : Thread nD τ).loc main_arg9) := (keep3_arg9 (W8 m ρ c)).trans (at8_arg9 m ρ c)

/-- The fourth product's output array: h3 @ W4. -/
theorem at11_out : W11 m ρ c (Proc.devRef .tc main_v58)
    = dense ((hidden3 (hidden2 (hidden1 (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg2)) (m ((c : Thread nD τ).loc main_arg5)) (m ((c : Thread nD τ).loc main_arg6))) (m ((c : Thread nD τ).loc main_arg1)) (m ((c : Thread nD τ).loc main_arg2)) (m ((c : Thread nD τ).loc main_arg7)) (m ((c : Thread nD τ).loc main_arg8))) : S100000x8.Idx → EReal) (m ((c : Thread nD τ).loc main_arg9) : S8x10.Idx → EReal) :=
  (W11_arr m ρ c 2).trans ((product3 (V10 m ρ) c).trans (congrArg₂ dense (at10_hidden m ρ c) (at10_arg9 m ρ c)))

theorem at11_v1 : W11 m ρ c (Proc.devRef .tc main_v1) = edgeSrc (m ((c : Thread nD τ).loc main_arg1)) :=
  (W11_of_ne m ρ c main_v1 (by decide)).trans ((keep3_v1 (W8 m ρ c)).trans (at8_v1 m ρ c))
theorem at11_v3 : W11 m ρ c (Proc.devRef .tc main_v3) = edgeDst (m ((c : Thread nD τ).loc main_arg1)) :=
  (W11_of_ne m ρ c main_v3 (by decide)).trans ((keep3_v3 (W8 m ρ c)).trans (at8_v3 m ρ c))
theorem at11_arg2 : W11 m ρ c (Proc.devRef .tc main_arg2) = m ((c : Thread nD τ).loc main_arg2) :=
  (W11_of_ne m ρ c main_arg2 (by decide)).trans ((keep3_arg2 (W8 m ρ c)).trans (at8_arg2 m ρ c))
theorem at11_arg10 : W11 m ρ c (Proc.devRef .tc main_arg10) = m ((c : Thread nD τ).loc main_arg10) :=
  (W11_of_ne m ρ c main_arg10 (by decide)).trans ((keep3_arg10 (W8 m ρ c)).trans (at8_arg10 m ρ c))

/-! ## The returned buffer -/

/-- THE RESULT BUFFER at the last boundary holds the network of the eleven arguments. -/
theorem result_eq : W13 m ρ c (Proc.devRef .tc main_v75)
    = network (m ((c : Thread nD τ).loc main_arg0)) (m ((c : Thread nD τ).loc main_arg1)) (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (layer4_read (W11 m ρ c)).trans ?_
  rw [at11_out m ρ c, at11_v1 m ρ c, at11_v3 m ρ c, at11_arg2 m ρ c, at11_arg10 m ρ c]
  rfl

end Cert.KernelIdeal.Net

end
-- ==== Proof.RefNet.lean ====
/-
  The reference program computes the network.

  The reference is one straight line of 108 host operations: the edge list cut into its two rows, then four times a
  product of two whole arrays followed by the layer's message passing and its clamp (after the fourth, the row-wise
  log-softmax instead). Cut at the same places as the kernel's program, each piece is a composition of operations applied
  to what it finds, and a piece leaves alone every buffer it does not write. A piece's message passing and activation are
  the very functions the kernel's program applies; its product is the dense transform (the host's product of two whole
  arrays along the last axis of the first and the first axis of the second has at (p, f) the sum over k of
  x[p, k] · w[k, f]). Walking the line forward from the launch memory, the returned buffer holds the network of the
  eleven arguments, and no operation writes an argument.
-/
import proofs.«136045_j24721831756423_1_alg».proof.Proof.Gen.ReferenceIdeal
import proofs.«136045_j24721831756423_1_alg».proof.Proof.RefOps
import proofs.«136045_j24721831756423_1_alg».proof.Proof.Network
import proofs.«136045_j24721831756423_1_alg».proof.Proof.LibTypedRefs
import Idealize.ShloMosaic.Lib.StableHlo.Run

set_option maxRecDepth 16384

noncomputable section

namespace Cert.ReferenceIdeal.Net

open Cert.ReferenceIdeal Cert.ReferenceIdeal.Gen Cert.ReferenceIdeal.Ops Cert.Net
open Idealize.ShloMosaic Idealize.ShloMosaic.TcCoe Idealize.SL.Sem Idealize.ShloMosaic.StableHlo Idealize.ShloMosaic.DotInner

variable {F : FTy → Type} [FloatOps F]

/-! ## The line as its five pieces in order -/

/-- Running two lines one after the other folds the second over what the first leaves. -/
theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih _

/-- The whole line from contents `V` is the pieces folded in order. -/
theorem after_ops (V : Valuation τ sig (Elt F)) :
    StableHlo.after ops V = StableHlo.after layer4 (StableHlo.after layer3 (StableHlo.after layer2 (StableHlo.after layer1 (StableHlo.after cut V)))) := by
  rw [ops_eq, after_append, after_append, after_append, after_append]

/-! ## Each piece, read from any contents found -/

variable (W : Valuation τ sig (Elt F))

theorem src_read : StableHlo.after cut W (Proc.devRef .tc main_v1) = Cert.KernelIdeal.Net.edgeSrc (W (Proc.devRef .tc main_arg1)) := by
  after_results_simp <;> rfl

theorem dst_read : StableHlo.after cut W (Proc.devRef .tc main_v3) = Cert.KernelIdeal.Net.edgeDst (W (Proc.devRef .tc main_arg1)) := by
  after_results_simp <;> rfl

theorem cut_keep_arg0 : StableHlo.after cut W (Proc.devRef .tc main_arg0) = W (Proc.devRef .tc main_arg0) := by
  after_results_simp

theorem cut_keep_arg2 : StableHlo.after cut W (Proc.devRef .tc main_arg2) = W (Proc.devRef .tc main_arg2) := by
  after_results_simp

theorem cut_keep_arg3 : StableHlo.after cut W (Proc.devRef .tc main_arg3) = W (Proc.devRef .tc main_arg3) := by
  after_results_simp

theorem cut_keep_arg4 : StableHlo.after cut W (Proc.devRef .tc main_arg4) = W (Proc.devRef .tc main_arg4) := by
  after_results_simp

theorem cut_keep_arg5 : StableHlo.after cut W (Proc.devRef .tc main_arg5) = W (Proc.devRef .tc main_arg5) := by
  after_results_simp

theorem cut_keep_arg6 : StableHlo.after cut W (Proc.devRef .tc main_arg6) = W (Proc.devRef .tc main_arg6) := by
  after_results_simp

theorem cut_keep_arg7 : StableHlo.after cut W (Proc.devRef .tc main_arg7) = W (Proc.devRef .tc main_arg7) := by
  after_results_simp

theorem cut_keep_arg8 : StableHlo.after cut W (Proc.devRef .tc main_arg8) = W (Proc.devRef .tc main_arg8) := by
  after_results_simp

theorem cut_keep_arg9 : StableHlo.after cut W (Proc.devRef .tc main_arg9) = W (Proc.devRef .tc main_arg9) := by
  after_results_simp

theorem cut_keep_arg10 : StableHlo.after cut W (Proc.devRef .tc main_arg10) = W (Proc.devRef .tc main_arg10) := by
  after_results_simp

/-- Layer 1 from any contents: the host's product of the features and the weights found, passed along the edges, clamped. -/
theorem layer1_read : StableHlo.after layer1 W (Proc.devRef .tc main_v21)
    = Cert.KernelIdeal.Net.relu8 (Cert.KernelIdeal.Net.pass8 (Host.dotGeneral dot_S100000x512_S512x8_S100000x8_1_0_0_1_n_n none (W (Proc.devRef .tc main_arg0)) (W (Proc.devRef .tc main_arg3)))
        (W (Proc.devRef .tc main_v1)) (W (Proc.devRef .tc main_v3)) (W (Proc.devRef .tc main_arg2)) (W (Proc.devRef .tc main_arg4))) := by
  after_results_simp
  simp only [StableHlo.TRef.ofBuf_toBuf]
  rfl

/-- Layer 2 from any contents: the host's product of the features and the weights found, passed along the edges, clamped. -/
theorem layer2_read : StableHlo.after layer2 W (Proc.devRef .tc main_v39)
    = Cert.KernelIdeal.Net.relu16 (Cert.KernelIdeal.Net.pass16 (Host.dotGeneral dot_S100000x8_S8x16_S100000x16_1_0_0_1_n_n none (W (Proc.devRef .tc main_v21)) (W (Proc.devRef .tc main_arg5)))
        (W (Proc.devRef .tc main_v1)) (W (Proc.devRef .tc main_v3)) (W (Proc.devRef .tc main_arg2)) (W (Proc.devRef .tc main_arg6))) := by
  after_results_simp
  simp only [StableHlo.TRef.ofBuf_toBuf]
  rfl

/-- Layer 3 from any contents: the host's product of the features and the weights found, passed along the edges, clamped. -/
theorem layer3_read : StableHlo.after layer3 W (Proc.devRef .tc main_v57)
    = Cert.KernelIdeal.Net.relu8 (Cert.KernelIdeal.Net.pass8 (Host.dotGeneral dot_S100000x16_S16x8_S100000x8_1_0_0_1_n_n none (W (Proc.devRef .tc main_v39)) (W (Proc.devRef .tc main_arg7)))
        (W (Proc.devRef .tc main_v1)) (W (Proc.devRef .tc main_v3)) (W (Proc.devRef .tc main_arg2)) (W (Proc.devRef .tc main_arg8))) := by
  after_results_simp
  simp only [StableHlo.TRef.ofBuf_toBuf]
  rfl

/-- Layer 4 from any contents: the host's product of the features and the weights found, passed along the edges, log-softmaxed. -/
theorem layer4_read : StableHlo.after layer4 W (Proc.devRef .tc main_v75)
    = Cert.KernelIdeal.Net.logSoftmax (Cert.KernelIdeal.Net.pass10 (Host.dotGeneral dot_S100000x8_S8x10_S100000x10_1_0_0_1_n_n none (W (Proc.devRef .tc main_v57)) (W (Proc.devRef .tc main_arg9)))
        (W (Proc.devRef .tc main_v1)) (W (Proc.devRef .tc main_v3)) (W (Proc.devRef .tc main_arg2)) (W (Proc.devRef .tc main_arg10))) := by
  after_results_simp
  simp only [StableHlo.TRef.ofBuf_toBuf]
  rfl

theorem keep1_v1 : StableHlo.after layer1 W (Proc.devRef .tc main_v1) = W (Proc.devRef .tc main_v1) := by
  after_results_simp

theorem keep1_v3 : StableHlo.after layer1 W (Proc.devRef .tc main_v3) = W (Proc.devRef .tc main_v3) := by
  after_results_simp

theorem keep1_arg2 : StableHlo.after layer1 W (Proc.devRef .tc main_arg2) = W (Proc.devRef .tc main_arg2) := by
  after_results_simp

theorem keep1_arg5 : StableHlo.after layer1 W (Proc.devRef .tc main_arg5) = W (Proc.devRef .tc main_arg5) := by
  after_results_simp

theorem keep1_arg6 : StableHlo.after layer1 W (Proc.devRef .tc main_arg6) = W (Proc.devRef .tc main_arg6) := by
  after_results_simp

theorem keep1_arg7 : StableHlo.after layer1 W (Proc.devRef .tc main_arg7) = W (Proc.devRef .tc main_arg7) := by
  after_results_simp

theorem keep1_arg8 : StableHlo.after layer1 W (Proc.devRef .tc main_arg8) = W (Proc.devRef .tc main_arg8) := by
  after_results_simp

theorem keep1_arg9 : StableHlo.after layer1 W (Proc.devRef .tc main_arg9) = W (Proc.devRef .tc main_arg9) := by
  after_results_simp

theorem keep1_arg10 : StableHlo.after layer1 W (Proc.devRef .tc main_arg10) = W (Proc.devRef .tc main_arg10) := by
  after_results_simp

theorem keep2_v1 : StableHlo.after layer2 W (Proc.devRef .tc main_v1) = W (Proc.devRef .tc main_v1) := by
  after_results_simp

theorem keep2_v3 : StableHlo.after layer2 W (Proc.devRef .tc main_v3) = W (Proc.devRef .tc main_v3) := by
  after_results_simp

theorem keep2_arg2 : StableHlo.after layer2 W (Proc.devRef .tc main_arg2) = W (Proc.devRef .tc main_arg2) := by
  after_results_simp

theorem keep2_arg7 : StableHlo.after layer2 W (Proc.devRef .tc main_arg7) = W (Proc.devRef .tc main_arg7) := by
  after_results_simp

theorem keep2_arg8 : StableHlo.after layer2 W (Proc.devRef .tc main_arg8) = W (Proc.devRef .tc main_arg8) := by
  after_results_simp

theorem keep2_arg9 : StableHlo.after layer2 W (Proc.devRef .tc main_arg9) = W (Proc.devRef .tc main_arg9) := by
  after_results_simp

theorem keep2_arg10 : StableHlo.after layer2 W (Proc.devRef .tc main_arg10) = W (Proc.devRef .tc main_arg10) := by
  after_results_simp

theorem keep3_v1 : StableHlo.after layer3 W (Proc.devRef .tc main_v1) = W (Proc.devRef .tc main_v1) := by
  after_results_simp

theorem keep3_v3 : StableHlo.after layer3 W (Proc.devRef .tc main_v3) = W (Proc.devRef .tc main_v3) := by
  after_results_simp

theorem keep3_arg2 : StableHlo.after layer3 W (Proc.devRef .tc main_arg2) = W (Proc.devRef .tc main_arg2) := by
  after_results_simp

theorem keep3_arg9 : StableHlo.after layer3 W (Proc.devRef .tc main_arg9) = W (Proc.devRef .tc main_arg9) := by
  after_results_simp

theorem keep3_arg10 : StableHlo.after layer3 W (Proc.devRef .tc main_arg10) = W (Proc.devRef .tc main_arg10) := by
  after_results_simp

/-! ## The products are the dense transform -/

theorem plain1 : Plain (M := 100000) (K := 512) (N := 8) dot_S100000x512_S512x8_S100000x8_1_0_0_1_n_n :=
  plain_record dot_S100000x512_S512x8_S100000x8_1_0_0_1_n_n, S100000x512, S512x8

theorem plain2 : Plain (M := 100000) (K := 8) (N := 16) dot_S100000x8_S8x16_S100000x16_1_0_0_1_n_n :=
  plain_record dot_S100000x8_S8x16_S100000x16_1_0_0_1_n_n, S100000x8, S8x16

theorem plain3 : Plain (M := 100000) (K := 16) (N := 8) dot_S100000x16_S16x8_S100000x8_1_0_0_1_n_n :=
  plain_record dot_S100000x16_S16x8_S100000x8_1_0_0_1_n_n, S100000x16, S16x8

theorem plain4 : Plain (M := 100000) (K := 8) (N := 10) dot_S100000x8_S8x10_S100000x10_1_0_0_1_n_n :=
  plain_record dot_S100000x8_S8x10_S100000x10_1_0_0_1_n_n, S100000x8, S8x10

/-! ## The line walked forward from the launch memory, over the extended reals -/

section Walk

variable (m : (ℓ : Loc nD τ sig) → Buf (Elt Ideal) ℓ) (c : Dev nD)

/-- The buffers' contents at launch, after the edge rows are cut, and after each of the first three layers. -/
abbrev Q0 : Valuation τ sig (Elt Ideal) := launchContents m c
abbrev Q1 : Valuation τ sig (Elt Ideal) := StableHlo.after cut (Q0 m c)
abbrev Q2 : Valuation τ sig (Elt Ideal) := StableHlo.after layer1 (Q1 m c)
abbrev Q3 : Valuation τ sig (Elt Ideal) := StableHlo.after layer2 (Q2 m c)
abbrev Q4 : Valuation τ sig (Elt Ideal) := StableHlo.after layer3 (Q3 m c)

theorem q1_v1 : Q1 m c (Proc.devRef .tc main_v1) = Cert.KernelIdeal.Net.edgeSrc (m ((c.tc : Thread nD τ).loc main_arg1)) := src_read (Q0 m c)
theorem q1_v3 : Q1 m c (Proc.devRef .tc main_v3) = Cert.KernelIdeal.Net.edgeDst (m ((c.tc : Thread nD τ).loc main_arg1)) := dst_read (Q0 m c)
theorem q1_arg0 : Q1 m c (Proc.devRef .tc main_arg0) = m ((c.tc : Thread nD τ).loc main_arg0) := cut_keep_arg0 (Q0 m c)
theorem q1_arg2 : Q1 m c (Proc.devRef .tc main_arg2) = m ((c.tc : Thread nD τ).loc main_arg2) := cut_keep_arg2 (Q0 m c)
theorem q1_arg3 : Q1 m c (Proc.devRef .tc main_arg3) = m ((c.tc : Thread nD τ).loc main_arg3) := cut_keep_arg3 (Q0 m c)
theorem q1_arg4 : Q1 m c (Proc.devRef .tc main_arg4) = m ((c.tc : Thread nD τ).loc main_arg4) := cut_keep_arg4 (Q0 m c)
theorem q1_arg5 : Q1 m c (Proc.devRef .tc main_arg5) = m ((c.tc : Thread nD τ).loc main_arg5) := cut_keep_arg5 (Q0 m c)
theorem q1_arg6 : Q1 m c (Proc.devRef .tc main_arg6) = m ((c.tc : Thread nD τ).loc main_arg6) := cut_keep_arg6 (Q0 m c)
theorem q1_arg7 : Q1 m c (Proc.devRef .tc main_arg7) = m ((c.tc : Thread nD τ).loc main_arg7) := cut_keep_arg7 (Q0 m c)
theorem q1_arg8 : Q1 m c (Proc.devRef .tc main_arg8) = m ((c.tc : Thread nD τ).loc main_arg8) := cut_keep_arg8 (Q0 m c)
theorem q1_arg9 : Q1 m c (Proc.devRef .tc main_arg9) = m ((c.tc : Thread nD τ).loc main_arg9) := cut_keep_arg9 (Q0 m c)
theorem q1_arg10 : Q1 m c (Proc.devRef .tc main_arg10) = m ((c.tc : Thread nD τ).loc main_arg10) := cut_keep_arg10 (Q0 m c)

/-- After layer 1: the first hidden layer of the arguments. -/
theorem q2_hidden : Q2 m c (Proc.devRef .tc main_v21) = (Cert.KernelIdeal.Net.hidden1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) := by
  refine (layer1_read (Q1 m c)).trans ?_
  rw [hostDot_eq_dense plain1, q1_arg0 m c, q1_arg3 m c, q1_v1 m c, q1_v3 m c, q1_arg2 m c, q1_arg4 m c]
  rfl

theorem q2_v1 : Q2 m c (Proc.devRef .tc main_v1) = Cert.KernelIdeal.Net.edgeSrc (m ((c.tc : Thread nD τ).loc main_arg1)) := (keep1_v1 (Q1 m c)).trans (q1_v1 m c)
theorem q2_v3 : Q2 m c (Proc.devRef .tc main_v3) = Cert.KernelIdeal.Net.edgeDst (m ((c.tc : Thread nD τ).loc main_arg1)) := (keep1_v3 (Q1 m c)).trans (q1_v3 m c)
theorem q2_arg2 : Q2 m c (Proc.devRef .tc main_arg2) = m ((c.tc : Thread nD τ).loc main_arg2) := (keep1_arg2 (Q1 m c)).trans (q1_arg2 m c)
theorem q2_arg5 : Q2 m c (Proc.devRef .tc main_arg5) = m ((c.tc : Thread nD τ).loc main_arg5) := (keep1_arg5 (Q1 m c)).trans (q1_arg5 m c)
theorem q2_arg6 : Q2 m c (Proc.devRef .tc main_arg6) = m ((c.tc : Thread nD τ).loc main_arg6) := (keep1_arg6 (Q1 m c)).trans (q1_arg6 m c)
theorem q2_arg7 : Q2 m c (Proc.devRef .tc main_arg7) = m ((c.tc : Thread nD τ).loc main_arg7) := (keep1_arg7 (Q1 m c)).trans (q1_arg7 m c)
theorem q2_arg8 : Q2 m c (Proc.devRef .tc main_arg8) = m ((c.tc : Thread nD τ).loc main_arg8) := (keep1_arg8 (Q1 m c)).trans (q1_arg8 m c)
theorem q2_arg9 : Q2 m c (Proc.devRef .tc main_arg9) = m ((c.tc : Thread nD τ).loc main_arg9) := (keep1_arg9 (Q1 m c)).trans (q1_arg9 m c)
theorem q2_arg10 : Q2 m c (Proc.devRef .tc main_arg10) = m ((c.tc : Thread nD τ).loc main_arg10) := (keep1_arg10 (Q1 m c)).trans (q1_arg10 m c)

/-- After layer 2: the second hidden layer. -/
theorem q3_hidden : Q3 m c (Proc.devRef .tc main_v39) = (Cert.KernelIdeal.Net.hidden2 (Cert.KernelIdeal.Net.hidden1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg1)) (m ((c.tc : Thread nD τ).loc main_arg2)) (m ((c.tc : Thread nD τ).loc main_arg5)) (m ((c.tc : Thread nD τ).loc main_arg6))) := by
  refine (layer2_read (Q2 m c)).trans ?_
  rw [hostDot_eq_dense plain2, q2_hidden m c, q2_arg5 m c, q2_v1 m c, q2_v3 m c, q2_arg2 m c, q2_arg6 m c]
  rfl

theorem q3_v1 : Q3 m c (Proc.devRef .tc main_v1) = Cert.KernelIdeal.Net.edgeSrc (m ((c.tc : Thread nD τ).loc main_arg1)) := (keep2_v1 (Q2 m c)).trans (q2_v1 m c)
theorem q3_v3 : Q3 m c (Proc.devRef .tc main_v3) = Cert.KernelIdeal.Net.edgeDst (m ((c.tc : Thread nD τ).loc main_arg1)) := (keep2_v3 (Q2 m c)).trans (q2_v3 m c)
theorem q3_arg2 : Q3 m c (Proc.devRef .tc main_arg2) = m ((c.tc : Thread nD τ).loc main_arg2) := (keep2_arg2 (Q2 m c)).trans (q2_arg2 m c)
theorem q3_arg7 : Q3 m c (Proc.devRef .tc main_arg7) = m ((c.tc : Thread nD τ).loc main_arg7) := (keep2_arg7 (Q2 m c)).trans (q2_arg7 m c)
theorem q3_arg8 : Q3 m c (Proc.devRef .tc main_arg8) = m ((c.tc : Thread nD τ).loc main_arg8) := (keep2_arg8 (Q2 m c)).trans (q2_arg8 m c)
theorem q3_arg9 : Q3 m c (Proc.devRef .tc main_arg9) = m ((c.tc : Thread nD τ).loc main_arg9) := (keep2_arg9 (Q2 m c)).trans (q2_arg9 m c)
theorem q3_arg10 : Q3 m c (Proc.devRef .tc main_arg10) = m ((c.tc : Thread nD τ).loc main_arg10) := (keep2_arg10 (Q2 m c)).trans (q2_arg10 m c)

/-- After layer 3: the third hidden layer. -/
theorem q4_hidden : Q4 m c (Proc.devRef .tc main_v57) = (Cert.KernelIdeal.Net.hidden3 (Cert.KernelIdeal.Net.hidden2 (Cert.KernelIdeal.Net.hidden1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg1)) (m ((c.tc : Thread nD τ).loc main_arg2)) (m ((c.tc : Thread nD τ).loc main_arg5)) (m ((c.tc : Thread nD τ).loc main_arg6))) (m ((c.tc : Thread nD τ).loc main_arg1)) (m ((c.tc : Thread nD τ).loc main_arg2)) (m ((c.tc : Thread nD τ).loc main_arg7)) (m ((c.tc : Thread nD τ).loc main_arg8))) := by
  refine (layer3_read (Q3 m c)).trans ?_
  rw [hostDot_eq_dense plain3, q3_hidden m c, q3_arg7 m c, q3_v1 m c, q3_v3 m c, q3_arg2 m c, q3_arg8 m c]
  rfl

theorem q4_v1 : Q4 m c (Proc.devRef .tc main_v1) = Cert.KernelIdeal.Net.edgeSrc (m ((c.tc : Thread nD τ).loc main_arg1)) := (keep3_v1 (Q3 m c)).trans (q3_v1 m c)
theorem q4_v3 : Q4 m c (Proc.devRef .tc main_v3) = Cert.KernelIdeal.Net.edgeDst (m ((c.tc : Thread nD τ).loc main_arg1)) := (keep3_v3 (Q3 m c)).trans (q3_v3 m c)
theorem q4_arg2 : Q4 m c (Proc.devRef .tc main_arg2) = m ((c.tc : Thread nD τ).loc main_arg2) := (keep3_arg2 (Q3 m c)).trans (q3_arg2 m c)
theorem q4_arg9 : Q4 m c (Proc.devRef .tc main_arg9) = m ((c.tc : Thread nD τ).loc main_arg9) := (keep3_arg9 (Q3 m c)).trans (q3_arg9 m c)
theorem q4_arg10 : Q4 m c (Proc.devRef .tc main_arg10) = m ((c.tc : Thread nD τ).loc main_arg10) := (keep3_arg10 (Q3 m c)).trans (q3_arg10 m c)

/-- THE RETURNED BUFFER after the whole line holds the network of the eleven arguments. -/
theorem result_eq : StableHlo.after ops (launchContents m c) (Proc.devRef .tc main_v75)
    = Cert.KernelIdeal.Net.network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rw [after_ops]
  refine (layer4_read (Q4 m c)).trans ?_
  rw [hostDot_eq_dense plain4, q4_hidden m c, q4_arg9 m c, q4_v1 m c, q4_v3 m c, q4_arg2 m c, q4_arg10 m c]
  rfl

end Walk

/-! ## The run -/

section Kept

variable (m : (ℓ : Loc nD τ sig) → Buf (Elt Ideal) ℓ) (c : Dev nD)

set_option maxHeartbeats 4000000 in
/-- No operation of the line writes argument 0. -/
theorem kept_arg0 : StableHlo.after ops (launchContents m c) (Proc.devRef .tc main_arg0) = m ((c.tc : Thread nD τ).loc main_arg0) := by
  after_results_simp <;> rfl

set_option maxHeartbeats 4000000 in
/-- No operation of the line writes argument 1. -/
theorem kept_arg1 : StableHlo.after ops (launchContents m c) (Proc.devRef .tc main_arg1) = m ((c.tc : Thread nD τ).loc main_arg1) := by
  after_results_simp <;> rfl

set_option maxHeartbeats 4000000 in
/-- No operation of the line writes argument 2. -/
theorem kept_arg2 : StableHlo.after ops (launchContents m c) (Proc.devRef .tc main_arg2) = m ((c.tc : Thread nD τ).loc main_arg2) := by
  after_results_simp <;> rfl

set_option maxHeartbeats 4000000 in
/-- No operation of the line writes argument 3. -/
theorem kept_arg3 : StableHlo.after ops (launchContents m c) (Proc.devRef .tc main_arg3) = m ((c.tc : Thread nD τ).loc main_arg3) := by
  after_results_simp <;> rfl

set_option maxHeartbeats 4000000 in
/-- No operation of the line writes argument 4. -/
theorem kept_arg4 : StableHlo.after ops (launchContents m c) (Proc.devRef .tc main_arg4) = m ((c.tc : Thread nD τ).loc main_arg4) := by
  after_results_simp <;> rfl

set_option maxHeartbeats 4000000 in
/-- No operation of the line writes argument 5. -/
theorem kept_arg5 : StableHlo.after ops (launchContents m c) (Proc.devRef .tc main_arg5) = m ((c.tc : Thread nD τ).loc main_arg5) := by
  after_results_simp <;> rfl

set_option maxHeartbeats 4000000 in
/-- No operation of the line writes argument 6. -/
theorem kept_arg6 : StableHlo.after ops (launchContents m c) (Proc.devRef .tc main_arg6) = m ((c.tc : Thread nD τ).loc main_arg6) := by
  after_results_simp <;> rfl

set_option maxHeartbeats 4000000 in
/-- No operation of the line writes argument 7. -/
theorem kept_arg7 : StableHlo.after ops (launchContents m c) (Proc.devRef .tc main_arg7) = m ((c.tc : Thread nD τ).loc main_arg7) := by
  after_results_simp <;> rfl

set_option maxHeartbeats 4000000 in
/-- No operation of the line writes argument 8. -/
theorem kept_arg8 : StableHlo.after ops (launchContents m c) (Proc.devRef .tc main_arg8) = m ((c.tc : Thread nD τ).loc main_arg8) := by
  after_results_simp <;> rfl

set_option maxHeartbeats 4000000 in
/-- No operation of the line writes argument 9. -/
theorem kept_arg9 : StableHlo.after ops (launchContents m c) (Proc.devRef .tc main_arg9) = m ((c.tc : Thread nD τ).loc main_arg9) := by
  after_results_simp <;> rfl

set_option maxHeartbeats 4000000 in
/-- No operation of the line writes argument 10. -/
theorem kept_arg10 : StableHlo.after ops (launchContents m c) (Proc.devRef .tc main_arg10) = m ((c.tc : Thread nD τ).loc main_arg10) := by
  after_results_simp <;> rfl

end Kept

/-- From any memory with zero counters every weakly fair execution of the reference terminates, nothing faulting, with the
    returned buffer at the network of the eleven arguments and every argument as launched (no operation writes one). -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v75) = Cert.KernelIdeal.Net.network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v75).trans (result_eq m c),
      (h c main_arg0).trans (kept_arg0 m c),
      (h c main_arg1).trans (kept_arg1 m c),
      (h c main_arg2).trans (kept_arg2 m c),
      (h c main_arg3).trans (kept_arg3 m c),
      (h c main_arg4).trans (kept_arg4 m c),
      (h c main_arg5).trans (kept_arg5 m c),
      (h c main_arg6).trans (kept_arg6 m c),
      (h c main_arg7).trans (kept_arg7 m c),
      (h c main_arg8).trans (kept_arg8 m c),
      (h c main_arg9).trans (kept_arg9 m c),
      (h c main_arg10).trans (kept_arg10 m c)⟩)
    (run_seq scopedRefs_eq scopedSems_eq defs main (fun _ => ops) main_eq (fun _ => ops_sub) m ρ)

end Cert.ReferenceIdeal.Net

end
-- ==== Proof.lean ====
/-
  A four-layer graph network on 100000 nodes and 3200000 weighted edges: the kernel's program against its reference.

  Both programs compute, layer by layer, h ↦ b + Σ_{edges into a node} w_e · (h @ W)[source of e], clamp the first three
  layers at zero from below, and take the row-wise log-softmax of the fourth. They differ only in how h @ W is computed:
  the kernel's program multiplies on the device, fifty blocks of 2000 rows at a time, after rounding both operands to a
  narrower float format; the reference multiplies the two whole arrays on the host. Over the extended reals the rounding
  is the identity and either product has at (p, f) the sum over k of h[p, k] · W[k, f], so each device product leaves
  the dense transform of the arrays it found; the host operations around the products are the same in both programs.
  Hence both returned buffers hold ONE function, `network`, of the eleven arguments. No algebraic law is used beyond the
  equality of the same finite sums, so the precondition (finite inputs) is never opened.

  The frames of the two kernel programs are the segments' launch (every weakly fair execution terminates, nothing
  faults, no segment writes an argument); the reference's frame is its run with the result dropped. The idealization
  rewrote no operation, so there is nothing to preserve.
-/
import proofs.«136045_j24721831756423_1_alg».proof.Defs
import proofs.«136045_j24721831756423_1_alg».proof.Proof.Gen.Kernel
import proofs.«136045_j24721831756423_1_alg».proof.Proof.Gen.Kernel.Skeleton
import proofs.«136045_j24721831756423_1_alg».proof.Proof.Gen.Kernel.Launch
import proofs.«136045_j24721831756423_1_alg».proof.Proof.Gen.Kernel.Points
import proofs.«136045_j24721831756423_1_alg».proof.Proof.Gen.Kernel.Frame
import proofs.«136045_j24721831756423_1_alg».proof.Proof.Gen.KernelIdeal
import proofs.«136045_j24721831756423_1_alg».proof.Proof.Gen.KernelIdeal.Skeleton
import proofs.«136045_j24721831756423_1_alg».proof.Proof.Gen.KernelIdeal.Launch
import proofs.«136045_j24721831756423_1_alg».proof.Proof.Gen.KernelIdeal.Points
import proofs.«136045_j24721831756423_1_alg».proof.Proof.Gen.KernelIdeal.Frame
import proofs.«136045_j24721831756423_1_alg».proof.Proof.Gen.ReferenceIdeal
import proofs.«136045_j24721831756423_1_alg».proof.Proof.Gen.Pre_finite_inputs
import proofs.«136045_j24721831756423_1_alg».proof.Proof.ResultRun
import proofs.«136045_j24721831756423_1_alg».proof.Proof.KernelNet
import proofs.«136045_j24721831756423_1_alg».proof.Proof.RefNet
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the returned buffer's contents dropped. -/
theorem frame_referenceIdeal : Cert.frame_ReferenceIdeal := fun m ρ _ =>
  (θ_run Cert.ReferenceIdeal.defs _ _).mono (fun _ h c => (h c).2) (Cert.ReferenceIdeal.Net.run m ρ)

/-- The idealization rewrote no operation: nothing to preserve. -/
theorem preserves : Cert.preserves_Kernel_KernelIdeal := trivial

/-- From memories that agree on the arguments both idealized programs end with the returned buffer at `network` of those
    arguments: the kernel's by its run with the result kept and the fold walked to the return, the reference's by its run. -/
theorem algebraic : Cert.algebraic_KernelIdeal_ReferenceIdeal := by
  intro m ρ m' ρ' _ hagree
  refine ⟨fun c => Cert.KernelIdeal.Net.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun _ h c => ⟨(h c).1.trans (Cert.KernelIdeal.Net.result_eq m ρ c), (h c).2⟩) (Cert.KernelIdeal.Net.run_result m ρ)
  · refine (θ_run Cert.ReferenceIdeal.defs _ _).mono (fun _ h c => ⟨(h c).1.trans ?_, (h c).2⟩)
      (Cert.ReferenceIdeal.Net.run m' ρ')
    obtain ⟨e0, e1, e2, e3, e4, e5, e6, e7, e8, e9, e10⟩ := hagree c
    rw [e0, e1, e2, e3, e4, e5, e6, e7, e8, e9, e10]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
